-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S32x16 .f32) (main_arg10 : FVec F S16 .f32) (main_arg11 : FVec F S16x16 .f32) (main_arg12 : FVec F S16 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg11
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S64 .f32) (main_arg7 : FVec F S64x32 .f32) (main_arg8 : FVec F S32 .f32) (main_arg9 : FVec F S32x16 .f32) (main_arg10 : FVec F S16 .f32) (main_arg11 : FVec F S16x16 .f32) (main_arg12 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x16 .f32) (main_arg10 : FVec F S16 .f32) (main_arg11 : FVec F S16x16 .f32) (main_arg12 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S10000x32 : Shape := ⟨2, ![10000, 32]⟩
abbrev S3200000x32 : Shape := ⟨2, ![3200000, 32]⟩
abbrev S1x32 : Shape := ⟨2, ![1, 32]⟩
abbrev S1024x32 : Shape := ⟨2, ![1024, 32]⟩
abbrev S1024 : Shape := ⟨1, ![1024]⟩
abbrev S1024x1 : Shape := ⟨2, ![1024, 1]⟩
abbrev S1024x16 : Shape := ⟨2, ![1024, 16]⟩
abbrev S1x16 : Shape := ⟨2, ![1, 16]⟩

abbrev nBuf : Space → Nat
  | .hbm => 175
  | .vmem => 21
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x16, .f32⟩
  | 10 => ⟨S16, .f32⟩
  | 11 => ⟨S16x16, .f32⟩
  | 12 => ⟨S16, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S100000, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S_, .f32⟩
  | 28 => ⟨S3200000, .f32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S100000, .f32⟩
  | 56 => ⟨S100000x64, .f32⟩
  | 57 => ⟨S_, .f32⟩
  | 58 => ⟨S100000x64, .f32⟩
  | 59 => ⟨S3200000x1, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x64, .f32⟩
  | 69 => ⟨S3200000x64, .f32⟩
  | 70 => ⟨S3200000x64, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S100000x64, .f32⟩
  | 80 => ⟨S100000x1, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .f32⟩
  | 92 => ⟨S100000x64, .f32⟩
  | 93 => ⟨S3200000x1, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x64, .f32⟩
  | 103 => ⟨S3200000x64, .f32⟩
  | 104 => ⟨S3200000x64, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S100000x64, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x32, .f32⟩
  | 125 => ⟨S_, .f32⟩
  | 126 => ⟨S100000x32, .f32⟩
  | 127 => ⟨S3200000x1, .f32⟩
  | _ => ⟨S100000x128, .f32⟩

abbrev hbmTy0_1 (i : Nat) : BufTy := match i % 128 with
  | 0 => ⟨S_, .i32⟩
  | 1 => ⟨S3200000, .i32⟩
  | 2 => ⟨S3200000, .i1⟩
  | 3 => ⟨S_, .i32⟩
  | 4 => ⟨S3200000, .i32⟩
  | 5 => ⟨S3200000, .i32⟩
  | 6 => ⟨S3200000, .i32⟩
  | 7 => ⟨S3200000x1, .i32⟩
  | 8 => ⟨S3200000x32, .f32⟩
  | 9 => ⟨S3200000x32, .f32⟩
  | 10 => ⟨S3200000x32, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S100000x32, .f32⟩
  | 20 => ⟨S100000x1, .f32⟩
  | 21 => ⟨S100000x32, .f32⟩
  | 22 => ⟨S100000x32, .f32⟩
  | 23 => ⟨S100000x32, .f32⟩
  | 24 => ⟨S1x32, .f32⟩
  | 25 => ⟨S100000x32, .f32⟩
  | 26 => ⟨S100000x32, .f32⟩
  | 27 => ⟨S_, .f32⟩
  | 28 => ⟨S100000x32, .f32⟩
  | 29 => ⟨S100000x32, .f32⟩
  | 30 => ⟨S_, .f32⟩
  | 31 => ⟨S1024x32, .f32⟩
  | 32 => ⟨S100000x1, .i32⟩
  | 33 => ⟨S1024x32, .f32⟩
  | 34 => ⟨S_, .f32⟩
  | 35 => ⟨S100000, .f32⟩
  | 36 => ⟨S_, .f32⟩
  | 37 => ⟨S1024, .f32⟩
  | 38 => ⟨S100000x1, .i32⟩
  | 39 => ⟨S1024, .f32⟩
  | 40 => ⟨S_, .f32⟩
  | 41 => ⟨S1024, .f32⟩
  | 42 => ⟨S1024, .f32⟩
  | 43 => ⟨S1024x1, .f32⟩
  | 44 => ⟨S1024x32, .f32⟩
  | 45 => ⟨S1024x32, .f32⟩
  | 46 => ⟨S1024x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S1024x32, .f32⟩
  | .local _ .vmem, ⟨16, _⟩ => ⟨S32x16, .f32⟩
  | .local _ .vmem, ⟨17, _⟩ => ⟨S16, .f32⟩
  | .local _ .vmem, ⟨18, _⟩ => ⟨S16x16, .f32⟩
  | .local _ .vmem, ⟨19, _⟩ => ⟨S16, .f32⟩
  | .local _ .vmem, ⟨20, _⟩ => ⟨S1024x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call0_cst : Ref sig .tc := ⟨.hbm, 87, rfl⟩
abbrev main_call0_v0 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_c_17 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call1_cst : Ref sig .tc := ⟨.hbm, 121, rfl⟩
abbrev main_call1_v0 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_c_19 : Ref sig .tc := ⟨.hbm, 128, rfl⟩
abbrev main_v90 : Ref sig .tc := ⟨.hbm, 129, rfl⟩
abbrev main_v91 : Ref sig .tc := ⟨.hbm, 130, rfl⟩
abbrev main_c_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_call2_cst : Ref sig .tc := ⟨.hbm, 155, rfl⟩
abbrev main_call2_v0 : Ref sig .tc := ⟨.hbm, 156, rfl⟩
abbrev main_v113 : Ref sig .tc := ⟨.hbm, 157, rfl⟩
abbrev main_cst_23 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_24 : Ref sig .tc := ⟨.hbm, 162, rfl⟩
abbrev main_v117 : Ref sig .tc := ⟨.hbm, 163, rfl⟩
abbrev main_cst_25 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_26 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S3200000x1_S3200000x32_0_1 : S3200000x1.BroadcastsInDim S3200000x32 (![0, 1] : Fin 2 → Fin S3200000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1024x32 : S_.BroadcastsInDim S1024x32 (![] : Fin 0 → Fin S1024x32.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  inb_S16x16_S16x16_0_0 : ∀ a, (![0, 0] : Fin 2 → Nat) a + S16x16.size a ≤ S16x16.size a
  h_S16x16 : 0 < S16x16.numel
  reduces_S1024x16_S1024 : S1024x16.Reduces [1] S1024
  shapeCasts_S1024_S1024x1 : S1024.ShapeCasts S1024x1
  broadcasts_S1024x1_S1024x16 : S1024x1.Broadcasts S1024x16
  inb_S1024x16_S1024x16_0_0 : ∀ a, (![0, 0] : Fin 2 → Nat) a + S1024x16.size a ≤ S1024x16.size a
  h_S1024x16 : 0 < S1024x16.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x16_S1024x16_1_0_0_1_n_n_wf : DotDims.WF S1024x32 S32x16 S1024x16 [1] [0] [0] [1] [] []
  dot_S1024x16_S16x16_S1024x16_1_0_0_1_n_n_wf : DotDims.WF S1024x16 S16x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S1024x32.size a
  hwx3_0 : ∀ i : grid3.Coords, EltTy.bits .f32 = 32 ∨ (Rect.block (s := S1024x32) S1024x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x16.size a ≤ S32x16.size a
  hwx3_1 : ∀ i : grid3.Coords, EltTy.bits .f32 = 32 ∨ (Rect.block (s := S32x16) S32x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16.size a ≤ S16.size a
  hwx3_2 : ∀ i : grid3.Coords, EltTy.bits .f32 = 32 ∨ (Rect.block (s := S16) S16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16.size a ≤ S16.size a
  hwx3_4 : ∀ i : grid3.Coords, EltTy.bits .f32 = 32 ∨ (Rect.block (s := S16) S16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x16.size a ≤ S1024x16.size a
  hwx3_5 : ∀ i : grid3.Coords, EltTy.bits .f32 = 32 ∨ (Rect.block (s := S1024x16) S1024x16.size (cc3_transform_5 i) (hinb3_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v86) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v125) S1024x32.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S32x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v126) S1024x16.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S1024x32 : Shape := ⟨2, ![1024, 32]⟩
abbrev S1024 : Shape := ⟨1, ![1024]⟩
abbrev S1024x1 : Shape := ⟨2, ![1024, 1]⟩
abbrev S1024x16 : Shape := ⟨2, ![1024, 16]⟩
abbrev S1x16 : Shape := ⟨2, ![1, 16]⟩

abbrev nBuf : Space → Nat
  | .hbm => 278
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x16, .f32⟩
  | 10 => ⟨S16, .f32⟩
  | 11 => ⟨S16x16, .f32⟩
  | 12 => ⟨S16, .f32⟩
  | 13 => ⟨S1x3200000, .i32⟩
  | 14 => ⟨S3200000, .i32⟩
  | 15 => ⟨S1x3200000, .i32⟩
  | 16 => ⟨S3200000, .i32⟩
  | 17 => ⟨S100000x64, .f32⟩
  | 18 => ⟨S_, .f32⟩
  | 19 => ⟨S100000, .f32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S_, .f32⟩
  | 29 => ⟨S3200000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000, .f32⟩
  | 55 => ⟨S3200000, .f32⟩
  | 56 => ⟨S_, .f32⟩
  | 57 => ⟨S100000x64, .f32⟩
  | 58 => ⟨S3200000x1, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000x64, .f32⟩
  | 68 => ⟨S3200000x64, .f32⟩
  | 69 => ⟨S3200000x64, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S100000x64, .f32⟩
  | 79 => ⟨S100000, .f32⟩
  | 80 => ⟨S100000x1, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .f32⟩
  | 92 => ⟨S100000, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S_, .f32⟩
  | 102 => ⟨S3200000, .f32⟩
  | 103 => ⟨S100000, .f32⟩
  | 104 => ⟨S_, .f32⟩
  | 105 => ⟨S100000, .f32⟩
  | 106 => ⟨S100000, .f32⟩
  | 107 => ⟨S_, .f32⟩
  | 108 => ⟨S100000, .f32⟩
  | 109 => ⟨S100000, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S3200000, .f32⟩
  | _ => ⟨S100000x128, .f32⟩

abbrev hbmTy0_1 (i : Nat) : BufTy := match i % 128 with
  | 0 => ⟨S3200000, .f32⟩
  | 1 => ⟨S_, .f32⟩
  | 2 => ⟨S100000x64, .f32⟩
  | 3 => ⟨S3200000x1, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x64, .f32⟩
  | 13 => ⟨S3200000x64, .f32⟩
  | 14 => ⟨S3200000x64, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S100000x64, .f32⟩
  | 24 => ⟨S100000, .f32⟩
  | 25 => ⟨S100000x1, .f32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x32, .f32⟩
  | 36 => ⟨S_, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S_, .f32⟩
  | 47 => ⟨S3200000, .f32⟩
  | 48 => ⟨S100000, .f32⟩
  | 49 => ⟨S_, .f32⟩
  | 50 => ⟨S100000, .f32⟩
  | 51 => ⟨S100000, .f32⟩
  | 52 => ⟨S_, .f32⟩
  | 53 => ⟨S100000, .f32⟩
  | 54 => ⟨S100000, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000, .f32⟩
  | 73 => ⟨S3200000, .f32⟩
  | 74 => ⟨S_, .f32⟩
  | 75 => ⟨S100000x32, .f32⟩
  | 76 => ⟨S3200000x1, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x32, .f32⟩
  | 86 => ⟨S3200000x32, .f32⟩
  | 87 => ⟨S3200000x32, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S100000x32, .f32⟩
  | 97 => ⟨S100000, .f32⟩
  | 98 => ⟨S100000x1, .f32⟩
  | 99 => ⟨S100000x32, .f32⟩
  | 100 => ⟨S100000x32, .f32⟩
  | 101 => ⟨S100000x32, .f32⟩
  | 102 => ⟨S1x32, .f32⟩
  | 103 => ⟨S100000x32, .f32⟩
  | 104 => ⟨S100000x32, .f32⟩
  | 105 => ⟨S_, .f32⟩
  | 106 => ⟨S100000x32, .f32⟩
  | 107 => ⟨S100000x32, .f32⟩
  | 108 => ⟨S_, .f32⟩
  | 109 => ⟨S1024x32, .f32⟩
  | 110 => ⟨S100000x1, .i32⟩
  | 111 => ⟨S1024x32, .f32⟩
  | 112 => ⟨S_, .f32⟩
  | 113 => ⟨S100000, .f32⟩
  | 114 => ⟨S_, .f32⟩
  | 115 => ⟨S1024, .f32⟩
  | 116 => ⟨S100000x1, .i32⟩
  | 117 => ⟨S1024, .f32⟩
  | 118 => ⟨S_, .f32⟩
  | 119 => ⟨S1024, .f32⟩
  | 120 => ⟨S1024, .f32⟩
  | 121 => ⟨S1024x1, .f32⟩
  | 122 => ⟨S1024x32, .f32⟩
  | 123 => ⟨S1024x32, .f32⟩
  | 124 => ⟨S1024x16, .f32⟩
  | 125 => ⟨S1x16, .f32⟩
  | 126 => ⟨S1024x16, .f32⟩
  | 127 => ⟨S1024x16, .f32⟩
  | _ => ⟨S100000x128, .f32⟩

abbrev hbmTy0_2 (i : Nat) : BufTy := match i % 128 with
  | 0 => ⟨S_, .f32⟩
  | 1 => ⟨S1024x16, .f32⟩
  | 2 => ⟨S1024x16, .f32⟩
  | 3 => ⟨S1024x16, .f32⟩
  | 4 => ⟨S1x16, .f32⟩
  | 5 => ⟨S1024x16, .f32⟩
  | 6 => ⟨S1024x16, .f32⟩
  | 7 => ⟨S_, .f32⟩
  | 8 => ⟨S1024, .f32⟩
  | 9 => ⟨S_, .f32⟩
  | 10 => ⟨S1024, .f32⟩
  | 11 => ⟨S1024, .f32⟩
  | 12 => ⟨S1024x1, .f32⟩
  | 13 => ⟨S1024x16, .f32⟩
  | 14 => ⟨S1024x16, .f32⟩
  | 15 => ⟨S1024x16, .f32⟩
  | 16 => ⟨S_, .f32⟩
  | 17 => ⟨S1024, .f32⟩
  | 18 => ⟨S1024x1, .f32⟩
  | 19 => ⟨S1024x1, .f32⟩
  | 20 => ⟨S1024x16, .f32⟩
  | 21 => ⟨S1024x16, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call0_cst : Ref sig .tc := ⟨.hbm, 87, rfl⟩
abbrev main_call0_v0 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_c_19 : Ref sig .tc := ⟨.hbm, 110, rfl⟩
abbrev main_v74 : Ref sig .tc := ⟨.hbm, 111, rfl⟩
abbrev main_v75 : Ref sig .tc := ⟨.hbm, 112, rfl⟩
abbrev main_c_20 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_21 : Ref sig .tc := ⟨.hbm, 119, rfl⟩
abbrev main_v81 : Ref sig .tc := ⟨.hbm, 120, rfl⟩
abbrev main_v82 : Ref sig .tc := ⟨.hbm, 121, rfl⟩
abbrev main_c_22 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_23 : Ref sig .tc := ⟨.hbm, 129, rfl⟩
abbrev main_v89 : Ref sig .tc := ⟨.hbm, 130, rfl⟩
abbrev main_v90 : Ref sig .tc := ⟨.hbm, 131, rfl⟩
abbrev main_c_24 : Ref sig .tc := ⟨.hbm, 132, rfl⟩
abbrev main_v91 : Ref sig .tc := ⟨.hbm, 133, rfl⟩
abbrev main_v92 : Ref sig .tc := ⟨.hbm, 134, rfl⟩
abbrev main_c_25 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_26 : Ref sig .tc := ⟨.hbm, 143, rfl⟩
abbrev main_v100 : Ref sig .tc := ⟨.hbm, 144, rfl⟩
abbrev main_v101 : Ref sig .tc := ⟨.hbm, 145, rfl⟩
abbrev main_c_27 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call1_cst : Ref sig .tc := ⟨.hbm, 160, rfl⟩
abbrev main_call1_v0 : Ref sig .tc := ⟨.hbm, 161, rfl⟩
abbrev main_v115 : Ref sig .tc := ⟨.hbm, 162, rfl⟩
abbrev main_v116 : Ref sig .tc := ⟨.hbm, 163, rfl⟩
abbrev main_cst_28 : Ref sig .tc := ⟨.hbm, 164, rfl⟩
abbrev main_v117 : Ref sig .tc := ⟨.hbm, 165, rfl⟩
abbrev main_c_29 : Ref sig .tc := ⟨.hbm, 166, rfl⟩
abbrev main_v118 : Ref sig .tc := ⟨.hbm, 167, rfl⟩
abbrev main_v119 : Ref sig .tc := ⟨.hbm, 168, rfl⟩
abbrev main_c_30 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_31 : Ref sig .tc := ⟨.hbm, 174, rfl⟩
abbrev main_v124 : Ref sig .tc := ⟨.hbm, 175, rfl⟩
abbrev main_v125 : Ref sig .tc := ⟨.hbm, 176, rfl⟩
abbrev main_cst_32 : Ref sig .tc := ⟨.hbm, 177, rfl⟩
abbrev main_v126 : Ref sig .tc := ⟨.hbm, 178, rfl⟩
abbrev main_v127 : Ref sig .tc := ⟨.hbm, 179, rfl⟩
abbrev main_cst_33 : Ref sig .tc := ⟨.hbm, 180, rfl⟩
abbrev main_v128 : Ref sig .tc := ⟨.hbm, 181, rfl⟩
abbrev main_v129 : Ref sig .tc := ⟨.hbm, 182, rfl⟩
abbrev main_c_34 : Ref sig .tc := ⟨.hbm, 183, rfl⟩
abbrev main_v130 : Ref sig .tc := ⟨.hbm, 184, rfl⟩
abbrev main_v131 : Ref sig .tc := ⟨.hbm, 185, rfl⟩
abbrev main_c_35 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_c_36 : Ref sig .tc := ⟨.hbm, 192, rfl⟩
abbrev main_v137 : Ref sig .tc := ⟨.hbm, 193, rfl⟩
abbrev main_v138 : Ref sig .tc := ⟨.hbm, 194, rfl⟩
abbrev main_c_37 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_38 : Ref sig .tc := ⟨.hbm, 202, rfl⟩
abbrev main_v145 : Ref sig .tc := ⟨.hbm, 203, rfl⟩
abbrev main_v146 : Ref sig .tc := ⟨.hbm, 204, rfl⟩
abbrev main_c_39 : Ref sig .tc := ⟨.hbm, 205, rfl⟩
abbrev main_v147 : Ref sig .tc := ⟨.hbm, 206, rfl⟩
abbrev main_v148 : Ref sig .tc := ⟨.hbm, 207, rfl⟩
abbrev main_c_40 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_c_41 : Ref sig .tc := ⟨.hbm, 216, rfl⟩
abbrev main_v156 : Ref sig .tc := ⟨.hbm, 217, rfl⟩
abbrev main_v157 : Ref sig .tc := ⟨.hbm, 218, rfl⟩
abbrev main_c_42 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_call2_cst : Ref sig .tc := ⟨.hbm, 233, rfl⟩
abbrev main_call2_v0 : Ref sig .tc := ⟨.hbm, 234, rfl⟩
abbrev main_v171 : Ref sig .tc := ⟨.hbm, 235, rfl⟩
abbrev main_cst_43 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_cst_44 : Ref sig .tc := ⟨.hbm, 240, rfl⟩
abbrev main_v175 : Ref sig .tc := ⟨.hbm, 241, rfl⟩
abbrev main_cst_45 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_46 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_call3_cst : Ref sig .tc := ⟨.hbm, 256, rfl⟩
abbrev main_call3_v0 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_call4_cst : Ref sig .tc := ⟨.hbm, 263, rfl⟩
abbrev main_call4_v0 : Ref sig .tc := ⟨.hbm, 264, rfl⟩
abbrev main_call4_cst_0 : Ref sig .tc := ⟨.hbm, 265, rfl⟩
abbrev main_call4_v1 : Ref sig .tc := ⟨.hbm, 266, rfl⟩
abbrev main_call4_v2 : Ref sig .tc := ⟨.hbm, 267, rfl⟩
abbrev main_call4_v3 : Ref sig .tc := ⟨.hbm, 268, rfl⟩
abbrev main_call4_v4 : Ref sig .tc := ⟨.hbm, 269, rfl⟩
abbrev main_call4_v5 : Ref sig .tc := ⟨.hbm, 270, rfl⟩
abbrev main_call4_v6 : Ref sig .tc := ⟨.hbm, 271, rfl⟩
abbrev main_call4_cst_1 : Ref sig .tc := ⟨.hbm, 272, rfl⟩
abbrev main_call4_v7 : Ref sig .tc := ⟨.hbm, 273, rfl⟩
abbrev main_call4_v8 : Ref sig .tc := ⟨.hbm, 274, rfl⟩
abbrev main_call4_v9 : Ref sig .tc := ⟨.hbm, 275, rfl⟩
abbrev main_call4_v10 : Ref sig .tc := ⟨.hbm, 276, rfl⟩
abbrev main_v193 : Ref sig .tc := ⟨.hbm, 277, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x32 : S_.BroadcastsInDim S100000x32 (![] : Fin 0 → Fin S100000x32.rank)
  bcast_S3200000x1_S3200000x32_0_1 : S3200000x1.BroadcastsInDim S3200000x32 (![0, 1] : Fin 2 → Fin S3200000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1024x32 : S_.BroadcastsInDim S1024x32 (![] : Fin 0 → Fin S1024x32.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  reducesTo_S1024x16_S1024_d1 : S1024x16.ReducesTo [1] S1024
  h_S_ : 0 < S_.numel
  bcast_S1024x1_S1024x16_0_1 : S1024x1.BroadcastsInDim S1024x16 (![0, 1] : Fin 2 → Fin S1024x16.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x16_S1024x16_1_0_0_1_n_n_wf : DotDims.WF S1024x32 S32x16 S1024x16 [1] [0] [0] [1] [] []
  dot_S1024x16_S16x16_S1024x16_1_0_0_1_n_n_wf : DotDims.WF S1024x16 S16x16 S1024x16 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf

class Facts : Prop extends Facts₀ where

variable [Facts]
-- ==== Proof.KernelRun.lean ====
/-
  The idealized kernel's run with its result named. From any memory with zero counters every weakly fair execution of the
  program — four kernel launches among stretches of host operations — terminates without a fault, and in every final state
  the result array holds what the fold of the program's segments leaves in it (the last launch's write-backs over the
  contents the host stretch before it leaves), the argument arrays being unchanged. The fold is the one the frame is stated
  over: the contents at each segment boundary, a host stretch applying its operations in order and a launch replacing its
  output array by the blocks its grid points write back.
-/
import proofs.«180449_j26645977104905_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the arguments as launched. -/
theorem run : θ_run defs (onTc (τ := τ) (main (F := F))) ⟨m, fun _ => 0, ρ⟩ (fun r => ∀ c : Dev nD,
      r.2.mem ((c.tc : Thread nD τ).loc main_v126) = W12 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v126 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Fold

end
-- ==== Proof.Carry.lean ====
/-
  What the later host stretches write, and what they leave alone. Between two kernel launches the program applies a stretch
  of host operations, each writing its own result array; an array that no operation of a stretch writes, and that is no
  array of the launch before the stretch, holds after the stretch what it held before the launch. The source and target
  node of every edge, the per-edge and per-node normalisation weights and the argument arrays are computed once, before the
  first launch, and are carried this way to every later layer that reads them.
-/
import proofs.«180449_j26645977104905_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]

/-- The references `hostOps1`'s operations write. -/
abbrev hostOps1_W : List (Ref sig .tc) := [main_cst_8, main_v34, main_v35, main_c_9, main_v36, main_v37, main_c_10, main_v38, main_v39, main_v40, main_v41, main_v42, main_v43, main_v44, main_c_11, main_v45, main_v46, main_c_12, main_v47, main_v48, main_v49, main_v50, main_v51, main_v52, main_v53, main_v54, main_v55, main_v56, main_v57, main_v58]
theorem hostOps1_writes : (hostOps1 : List (HloOp τ sig (Elt F))).Forall fun op => op.writes ⊆ ((hostOps1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references `hostOps1_1`'s operations write. -/
abbrev hostOps1_1_W : List (Ref sig .tc) := [main_call0_cst, main_call0_v0, main_v59]
theorem hostOps1_1_writes : (hostOps1_1 : List (HloOp τ sig (Elt F))).Forall fun op => op.writes ⊆ ((hostOps1_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references `hostOps2`'s operations write. -/
abbrev hostOps2_W : List (Ref sig .tc) := [main_cst_13, main_v61, main_v62, main_c_14, main_v63, main_v64, main_c_15, main_v65, main_v66, main_v67, main_v68, main_v69, main_v70, main_v71, main_c_16, main_v72, main_v73, main_c_17, main_v74, main_v75, main_v76, main_v77, main_v78, main_v79, main_v80, main_v81, main_v82, main_v83, main_v84, main_v85]
theorem hostOps2_writes : (hostOps2 : List (HloOp τ sig (Elt F))).Forall fun op => op.writes ⊆ ((hostOps2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references `hostOps2_1`'s operations write. -/
abbrev hostOps2_1_W : List (Ref sig .tc) := [main_call1_cst, main_call1_v0, main_v86]
theorem hostOps2_1_writes : (hostOps2_1 : List (HloOp τ sig (Elt F))).Forall fun op => op.writes ⊆ ((hostOps2_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references `hostOps3`'s operations write. -/
abbrev hostOps3_W : List (Ref sig .tc) := [main_cst_18, main_v88, main_v89, main_c_19, main_v90, main_v91, main_c_20, main_v92, main_v93, main_v94, main_v95, main_v96, main_v97, main_v98, main_c_21, main_v99, main_v100, main_c_22, main_v101, main_v102, main_v103, main_v104, main_v105, main_v106, main_v107, main_v108, main_v109, main_v110, main_v111, main_v112]
theorem hostOps3_writes : (hostOps3 : List (HloOp τ sig (Elt F))).Forall fun op => op.writes ⊆ ((hostOps3_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references `hostOps3_1`'s operations write. -/
abbrev hostOps3_1_W : List (Ref sig .tc) := [main_call2_cst, main_call2_v0, main_v113]
theorem hostOps3_1_writes : (hostOps3_1 : List (HloOp τ sig (Elt F))).Forall fun op => op.writes ⊆ ((hostOps3_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- The references `hostOps3_2`'s operations write. -/
abbrev hostOps3_2_W : List (Ref sig .tc) := [main_cst_23, main_v114, main_v115, main_v116, main_cst_24, main_v117, main_cst_25, main_v118, main_v119, main_v120, main_cst_26, main_v121, main_v122, main_v123, main_v124, main_v125]
theorem hostOps3_2_writes : (hostOps3_2 : List (HloOp τ sig (Elt F))).Forall fun op => op.writes ⊆ ((hostOps3_2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

variable (m : (ℓ : Loc nD τ sig) → Buf (Elt F) ℓ) (ρ : Dev nD → PrngReg)

/-- Across the first launch and the first layer's host operations. -/
theorem keep_1_4 (c : Dev nD) (r : Ref sig .tc) (h0 : ∀ w, Pipeline.arrRef spec0 w ≠ r) (h1 : r ∉ hostOps1_W) (h2 : r ∉ hostOps1_1_W) :
    W4 m ρ c (Proc.devRef .tc r) = W1 m ρ c (Proc.devRef .tc r) :=
  (StableHlo.after_of_writes_sub hostOps1_1 _ hostOps1_1_writes h2).trans
    ((StableHlo.after_of_writes_sub hostOps1 _ hostOps1_writes h1).trans (W2_of_ne m ρ c r h0))

/-- Across the second launch and the second layer's host operations. -/
theorem keep_4_7 (c : Dev nD) (r : Ref sig .tc) (h0 : ∀ w, Pipeline.arrRef spec1 w ≠ r) (h1 : r ∉ hostOps2_W) (h2 : r ∉ hostOps2_1_W) :
    W7 m ρ c (Proc.devRef .tc r) = W4 m ρ c (Proc.devRef .tc r) :=
  (StableHlo.after_of_writes_sub hostOps2_1 _ hostOps2_1_writes h2).trans
    ((StableHlo.after_of_writes_sub hostOps2 _ hostOps2_writes h1).trans (W5_of_ne m ρ c r h0))

/-- Across the third launch, the third layer's host operations and the pooling. -/
theorem keep_7_11 (c : Dev nD) (r : Ref sig .tc) (h0 : ∀ w, Pipeline.arrRef spec2 w ≠ r) (h1 : r ∉ hostOps3_W) (h2 : r ∉ hostOps3_1_W)
    (h3 : r ∉ hostOps3_2_W) :
    W11 m ρ c (Proc.devRef .tc r) = W7 m ρ c (Proc.devRef .tc r) :=
  (StableHlo.after_of_writes_sub hostOps3_2 _ hostOps3_2_writes h3).trans
    ((StableHlo.after_of_writes_sub hostOps3_1 _ hostOps3_1_writes h2).trans
      ((StableHlo.after_of_writes_sub hostOps3 _ hostOps3_writes h1).trans (W8_of_ne m ρ c r h0)))

end Cert.KernelIdeal.Fold

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«180449_j26645977104905_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.Linear0.lean ====
/-
  The first layer's linear map: the kernel launch that multiplies the node features, ten thousand rows at a grid point, by the
  layer's weight matrix. Each grid point loads its block of rows and the whole weight matrix, rounds both to bf16 (the
  identity on extended reals) and stores their matrix-unit product into a zero accumulator; entry (p, q) of that block is the
  sum over k of the block's row p times the weights' column q, which is entry (t · 10000 + p, q) of the product of the whole
  arrays. The ten blocks tile the output array, so after the launch the output array IS the product of the two arrays the
  launch read.
-/
import proofs.«180449_j26645977104905_1_alg».proof.Proof.Gen.KernelIdeal.Frame
import proofs.«180449_j26645977104905_1_alg».proof.Proof.LibMatProd
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)
open Idealize.ShloMosaic.ValueIdx Idealize.ShloMosaic.MatProd Idealize.ShloMosaic.DotPlain

/-- The launch's dimension numbers are those of a plain matrix product. -/
theorem plain0 : IsPlain dot_S10000x128_S128x64_S10000x64_1_0_0_1_n_n := ⟨rfl, rfl, rfl, rfl, rfl, rfl⟩

/-- What a grid point stores, at an entry: the product of its block of rows with the weights. -/
theorem pay0_apply (x0 : Vec Ideal S10000x128 .f32) (x1 : Vec Ideal S128x64 .f32) (j : S10000x64.Idx) :
    k0_pay1 (F := Ideal) x0 x1 j = matProd x0 x1 j :=
  MatProd.matmul_zero_apply plain0 none (truncf .bf16 x0 bitsLt_bf16_f32) (truncf .bf16 x1 bitsLt_bf16_f32) j

/-- An entry of a block's product is the whole product's entry on the block's row, when the block's rows are rows of
    the whole left array and the weights are the whole right array. -/
theorem entry0 (x0 : Vec Ideal S10000x128 .f32) (x1 : Vec Ideal S128x64 .f32) (L : S100000x128.Idx → EReal) (R : S128x64.Idx → EReal)
    (p : Fin 10000) (q : Fin 64) (i : Fin 100000)
    (hl : ∀ k : Fin 128, x0 (ix2 p k) = L (ix2 i k)) (hr : ∀ k : Fin 128, x1 (ix2 k q) = R (ix2 k q)) :
    k0_pay1 (F := Ideal) x0 x1 (ix2 p q) = matProd L R (ix2 i q) :=
  (pay0_apply x0 x1 (ix2 p q)).trans (matProd_of_rows x0 x1 L R p q i hl hr)

theorem zero_off0 : (![0, 0] : Fin 2 → Nat) = fun _ => 0 := funext fun a => by fin_cases a <;> rfl

/-- The launch's index maps over its ten grid points: the rows' block and the output's block are block t, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

section
variable (V : (c : Dev nD) → (b : Ref sig .tc) → Buf (Elt Ideal) ((c : Thread nD τ).loc b))

/-- What grid point t writes back is block t of the product of the two arrays the launch reads. -/
theorem flushed0 (c : Dev nD) (t : Fin cfg0.N) :
    (dat0 V c).flushed 2 t = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero zero_off0]
  simp only [View.ld_unit_zero (S := S10000x128) zero_off0, View.ld_unit_zero (S := S128x64) zero_off0]
  obtain ⟨e0, e1, e2, e3, e4, e5, e6⟩ := idx_facts0 t
  funext y
  obtain ⟨p, q, rfl⟩ : ∃ (p : Fin 10000) (q : Fin 64), y = ix2 p q := ⟨y 0, y 1, eq_ix2 y⟩
  have hi : ((cfg0.win 2).blk t).view.emb (ix2 p q) = ix2 (⟨t.val * 10000 + p.val, by have := p.isLt; omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay1 (iblk0 V c 0 t) (iblk0 V c 1 t) (ix2 p q) = matProd (V c main_arg0) (V c main_arg3) (((cfg0.win 2).blk t).view.emb (ix2 p q))
  rw [hi]
  refine entry0 (iblk0 V c 0 t) (iblk0 V c 1 t) (V c main_arg0) (V c main_arg3) p q _ (fun k => ?_) (fun k => ?_)
  · show V c main_arg0 (((cfg0.win 0).blk t).view.emb (ix2 p k)) = V c main_arg0 (ix2 (⟨t.val * 10000 + p.val, by have := p.isLt; omega⟩ : Fin 100000) k)
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Every row of the output array lies in the block of the grid point numbered by the row's ten-thousand. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  obtain ⟨e0, e1, e2, e3, e4, e5, e6⟩ := idx_facts0 ⟨(i 0).val / 10000, by rw [hN]; omega⟩
  rw [mem_blk0]
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- After the launch its output array is the product of the two arrays it read. -/
theorem product0 (c : Dev nD) : (dat0 V c).arrAt 2 cfg0.N = matProd (V c main_arg0) (V c main_arg3) :=
  (dat0 V c).arrAt_eq_of_cover 2 (matProd (V c main_arg0) (V c main_arg3)) (fun t _ => flushed0 V c t) (cover0)

end

end Cert.KernelIdeal.Fold

end
-- ==== Proof.Linear1.lean ====
/-
  The second layer's linear map: the kernel launch that multiplies the node features, ten thousand rows at a grid point, by the
  layer's weight matrix. Each grid point loads its block of rows and the whole weight matrix, rounds both to bf16 (the
  identity on extended reals, as is the cast of the block to its own shape in front of it) and stores their matrix-unit product into a zero accumulator; entry (p, q) of that block is the
  sum over k of the block's row p times the weights' column q, which is entry (t · 10000 + p, q) of the product of the whole
  arrays. The ten blocks tile the output array, so after the launch the output array IS the product of the two arrays the
  launch read.
-/
import proofs.«180449_j26645977104905_1_alg».proof.Proof.Gen.KernelIdeal.Frame
import proofs.«180449_j26645977104905_1_alg».proof.Proof.LibMatProd
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)
open Idealize.ShloMosaic.ValueIdx Idealize.ShloMosaic.MatProd Idealize.ShloMosaic.DotPlain

/-- The launch's dimension numbers are those of a plain matrix product. -/
theorem plain1 : IsPlain dot_S10000x64_S64x64_S10000x64_1_0_0_1_n_n := ⟨rfl, rfl, rfl, rfl, rfl, rfl⟩

/-- What a grid point stores, at an entry: the product of its block of rows with the weights. -/
theorem pay1_apply (x0 : Vec Ideal S10000x64 .f32) (x1 : Vec Ideal S64x64 .f32) (j : S10000x64.Idx) :
    k1_pay1 (F := Ideal) x0 x1 j = matProd x0 x1 j := by
  unfold k1_pay1
  rw [shapeCast_self]
  exact MatProd.matmul_zero_apply plain1 none (truncf .bf16 x0 bitsLt_bf16_f32) (truncf .bf16 x1 bitsLt_bf16_f32) j

/-- An entry of a block's product is the whole product's entry on the block's row, when the block's rows are rows of
    the whole left array and the weights are the whole right array. -/
theorem entry1 (x0 : Vec Ideal S10000x64 .f32) (x1 : Vec Ideal S64x64 .f32) (L : S100000x64.Idx → EReal) (R : S64x64.Idx → EReal)
    (p : Fin 10000) (q : Fin 64) (i : Fin 100000)
    (hl : ∀ k : Fin 64, x0 (ix2 p k) = L (ix2 i k)) (hr : ∀ k : Fin 64, x1 (ix2 k q) = R (ix2 k q)) :
    k1_pay1 (F := Ideal) x0 x1 (ix2 p q) = matProd L R (ix2 i q) :=
  (pay1_apply x0 x1 (ix2 p q)).trans (matProd_of_rows x0 x1 L R p q i hl hr)

theorem zero_off1 : (![0, 0] : Fin 2 → Nat) = fun _ => 0 := funext fun a => by fin_cases a <;> rfl

/-- The launch's index maps over its ten grid points: the rows' block and the output's block are block t, every other
    block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

section
variable (V : (c : Dev nD) → (b : Ref sig .tc) → Buf (Elt Ideal) ((c : Thread nD τ).loc b))

/-- What grid point t writes back is block t of the product of the two arrays the launch reads. -/
theorem flushed1 (c : Dev nD) (t : Fin cfg1.N) :
    (dat1 V c).flushed 2 t = ((cfg1.win 2).blk t).view.read (Elt Ideal) (matProd (V c main_v59) (V c main_arg5)) := by
  show (cfg1.win 2).cut (grid1.coords t) ((dat1 V c).after 2 t) = _
  rw [after1_2]
  unfold out1_2
  rw [View.canon_unit_zero zero_off1]
  simp only [View.ld_unit_zero (S := S10000x64) zero_off1, View.ld_unit_zero (S := S64x64) zero_off1]
  obtain ⟨e0, e1, e2, e3, e4, e5, e6⟩ := idx_facts1 t
  funext y
  obtain ⟨p, q, rfl⟩ : ∃ (p : Fin 10000) (q : Fin 64), y = ix2 p q := ⟨y 0, y 1, eq_ix2 y⟩
  have hi : ((cfg1.win 2).blk t).view.emb (ix2 p q) = ix2 (⟨t.val * 10000 + p.val, by have := p.isLt; omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show k1_pay1 (iblk1 V c 0 t) (iblk1 V c 1 t) (ix2 p q) = matProd (V c main_v59) (V c main_arg5) (((cfg1.win 2).blk t).view.emb (ix2 p q))
  rw [hi]
  refine entry1 (iblk1 V c 0 t) (iblk1 V c 1 t) (V c main_v59) (V c main_arg5) p q _ (fun k => ?_) (fun k => ?_)
  · show V c main_v59 (((cfg1.win 0).blk t).view.emb (ix2 p k)) = V c main_v59 (ix2 (⟨t.val * 10000 + p.val, by have := p.isLt; omega⟩ : Fin 100000) k)
    refine congrArg (V c main_v59) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_arg5 (((cfg1.win 1).blk t).view.emb (ix2 k q)) = V c main_arg5 (ix2 k q)
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v60).slice (win1_2.rect t)).set ↔ _
  rw [View.set_slice_whole, Rect.mem_set_unit]
  exact Iff.rfl

/-- Every row of the output array lies in the block of the grid point numbered by the row's ten-thousand. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  obtain ⟨e0, e1, e2, e3, e4, e5, e6⟩ := idx_facts1 ⟨(i 0).val / 10000, by rw [hN]; omega⟩
  rw [mem_blk1]
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 64 ≤ (i 1).val ∧ (i 1).val < win1_2.index _ (1 : Fin 2) * 64 + 64
    rw [e5]; omega

/-- After the launch its output array is the product of the two arrays it read. -/
theorem product1 (c : Dev nD) : (dat1 V c).arrAt 2 cfg1.N = matProd (V c main_v59) (V c main_arg5) :=
  (dat1 V c).arrAt_eq_of_cover 2 (matProd (V c main_v59) (V c main_arg5)) (fun t _ => flushed1 V c t) (cover1)

end

end Cert.KernelIdeal.Fold

end
-- ==== Proof.Linear2.lean ====
/-
  The third layer's linear map: the kernel launch that multiplies the node features, ten thousand rows at a grid point, by the
  layer's weight matrix. Each grid point loads its block of rows and the whole weight matrix, rounds both to bf16 (the
  identity on extended reals, as is the cast of the block to its own shape in front of it) and stores their matrix-unit product into a zero accumulator; entry (p, q) of that block is the
  sum over k of the block's row p times the weights' column q, which is entry (t · 10000 + p, q) of the product of the whole
  arrays. The ten blocks tile the output array, so after the launch the output array IS the product of the two arrays the
  launch read.
-/
import proofs.«180449_j26645977104905_1_alg».proof.Proof.Gen.KernelIdeal.Frame
import proofs.«180449_j26645977104905_1_alg».proof.Proof.LibMatProd
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)
open Idealize.ShloMosaic.ValueIdx Idealize.ShloMosaic.MatProd Idealize.ShloMosaic.DotPlain

/-- The launch's dimension numbers are those of a plain matrix product. -/
theorem plain2 : IsPlain dot_S10000x64_S64x32_S10000x32_1_0_0_1_n_n := ⟨rfl, rfl, rfl, rfl, rfl, rfl⟩

/-- What a grid point stores, at an entry: the product of its block of rows with the weights. -/
theorem pay2_apply (x0 : Vec Ideal S10000x64 .f32) (x1 : Vec Ideal S64x32 .f32) (j : S10000x32.Idx) :
    k2_pay1 (F := Ideal) x0 x1 j = matProd x0 x1 j := by
  unfold k2_pay1
  rw [shapeCast_self]
  exact MatProd.matmul_zero_apply plain2 none (truncf .bf16 x0 bitsLt_bf16_f32) (truncf .bf16 x1 bitsLt_bf16_f32) j

/-- An entry of a block's product is the whole product's entry on the block's row, when the block's rows are rows of
    the whole left array and the weights are the whole right array. -/
theorem entry2 (x0 : Vec Ideal S10000x64 .f32) (x1 : Vec Ideal S64x32 .f32) (L : S100000x64.Idx → EReal) (R : S64x32.Idx → EReal)
    (p : Fin 10000) (q : Fin 32) (i : Fin 100000)
    (hl : ∀ k : Fin 64, x0 (ix2 p k) = L (ix2 i k)) (hr : ∀ k : Fin 64, x1 (ix2 k q) = R (ix2 k q)) :
    k2_pay1 (F := Ideal) x0 x1 (ix2 p q) = matProd L R (ix2 i q) :=
  (pay2_apply x0 x1 (ix2 p q)).trans (matProd_of_rows x0 x1 L R p q i hl hr)

theorem zero_off2 : (![0, 0] : Fin 2 → Nat) = fun _ => 0 := funext fun a => by fin_cases a <;> rfl

/-- The launch's index maps over its ten grid points: the rows' block and the output's block are block t, every other
    block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

section
variable (V : (c : Dev nD) → (b : Ref sig .tc) → Buf (Elt Ideal) ((c : Thread nD τ).loc b))

/-- What grid point t writes back is block t of the product of the two arrays the launch reads. -/
theorem flushed2 (c : Dev nD) (t : Fin cfg2.N) :
    (dat2 V c).flushed 2 t = ((cfg2.win 2).blk t).view.read (Elt Ideal) (matProd (V c main_v86) (V c main_arg7)) := by
  show (cfg2.win 2).cut (grid2.coords t) ((dat2 V c).after 2 t) = _
  rw [after2_2]
  unfold out2_2
  rw [View.canon_unit_zero zero_off2]
  simp only [View.ld_unit_zero (S := S10000x64) zero_off2, View.ld_unit_zero (S := S64x32) zero_off2]
  obtain ⟨e0, e1, e2, e3, e4, e5, e6⟩ := idx_facts2 t
  funext y
  obtain ⟨p, q, rfl⟩ : ∃ (p : Fin 10000) (q : Fin 32), y = ix2 p q := ⟨y 0, y 1, eq_ix2 y⟩
  have hi : ((cfg2.win 2).blk t).view.emb (ix2 p q) = ix2 (⟨t.val * 10000 + p.val, by have := p.isLt; omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 32 + 1 * q.val = q.val; omega
  show k2_pay1 (iblk2 V c 0 t) (iblk2 V c 1 t) (ix2 p q) = matProd (V c main_v86) (V c main_arg7) (((cfg2.win 2).blk t).view.emb (ix2 p q))
  rw [hi]
  refine entry2 (iblk2 V c 0 t) (iblk2 V c 1 t) (V c main_v86) (V c main_arg7) p q _ (fun k => ?_) (fun k => ?_)
  · show V c main_v86 (((cfg2.win 0).blk t).view.emb (ix2 p k)) = V c main_v86 (ix2 (⟨t.val * 10000 + p.val, by have := p.isLt; omega⟩ : Fin 100000) k)
    refine congrArg (V c main_v86) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · show V c main_arg7 (((cfg2.win 1).blk t).view.emb (ix2 k q)) = V c main_arg7 (ix2 k q)
    refine congrArg (V c main_arg7) (funext fun a => Fin.ext ?_)
    match a with
    | ⟨0, _⟩ => show win2_1.index t (0 : Fin 2) * 64 + 1 * k.val = k.val; omega
    | ⟨1, _⟩ => show win2_1.index t (1 : Fin 2) * 32 + 1 * q.val = q.val; omega

/-- An index of the output array is in point t's block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v87).slice (win2_2.rect t)).set ↔ _
  rw [View.set_slice_whole, Rect.mem_set_unit]
  exact Iff.rfl

/-- Every row of the output array lies in the block of the grid point numbered by the row's ten-thousand. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  refine ⟨⟨(i 0).val / 10000, by rw [hN]; omega⟩, flush2_2 _, ?_⟩
  obtain ⟨e0, e1, e2, e3, e4, e5, e6⟩ := idx_facts2 ⟨(i 0).val / 10000, by rw [hN]; omega⟩
  rw [mem_blk2]
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 32 ≤ (i 1).val ∧ (i 1).val < win2_2.index _ (1 : Fin 2) * 32 + 32
    rw [e5]; omega

/-- After the launch its output array is the product of the two arrays it read. -/
theorem product2 (c : Dev nD) : (dat2 V c).arrAt 2 cfg2.N = matProd (V c main_v86) (V c main_arg7) :=
  (dat2 V c).arrAt_eq_of_cover 2 (matProd (V c main_v86) (V c main_arg7)) (fun t _ => flushed2 V c t) (cover2)

end

end Cert.KernelIdeal.Fold

end
-- ==== Proof.HeadSpec.lean ====
/-
  The classifier head as a function of arrays of extended reals. A dense layer sends a [1024, K] array p, a [K, N] weight
  array w and a bias vector b to the array whose entry (r, d) is the sum over k of p(r, k) · w(k, d), plus b(d). The head is
  a dense layer, the maximum with zero, a second dense layer, and the row-wise log-softmax: each entry minus its row's
  maximum (the maximum taken from minus infinity, and once more against minus infinity), minus the logarithm of the sum
  over the row of the exponentials of the entries so shifted. Zero and minus infinity are kept as the float words both
  programs write them with.
-/
import Idealize.ShloMosaic.PureOps.Ideal.Laws
import Idealize.ShloMosaic.Lib.ValueIdx

noncomputable section

open scoped BigOperators

namespace Cert.Head

open Idealize.ShloMosaic Idealize.ShloMosaic.ValueIdx

/-- A dense layer: entry (r, d) is the sum over k of p(r, k) · w(k, d), plus b(d). -/
def dense {K N : Nat} (p : (⟨2, ![1024, K]⟩ : Shape).Idx → EReal) (w : (⟨2, ![K, N]⟩ : Shape).Idx → EReal)
    (b : (⟨1, ![N]⟩ : Shape).Idx → EReal) : (⟨2, ![1024, N]⟩ : Shape).Idx → EReal :=
  fun i => (∑ k : Fin K, p (ix2 (i 0) k) * w (ix2 k (i 1))) + b (ix1 (i 1))

theorem dense_apply {K N : Nat} (p : (⟨2, ![1024, K]⟩ : Shape).Idx → EReal) (w : (⟨2, ![K, N]⟩ : Shape).Idx → EReal)
    (b : (⟨1, ![N]⟩ : Shape).Idx → EReal) (r : Fin 1024) (d : Fin N) :
    dense p w b (ix2 r d) = (∑ k : Fin K, p (ix2 r k) * w (ix2 k d)) + b (ix1 d) := rfl

/-- The maximum with zero, entry by entry. -/
def rect (z : (⟨2, ![1024, 16]⟩ : Shape).Idx → EReal) : (⟨2, ![1024, 16]⟩ : Shape).Idx → EReal :=
  fun i => max (z i) (Ideal.ofBits .f32 0x00000000#32)

/-- Row r's maximum, taken from minus infinity and once more against minus infinity. -/
def rowTop (l : (⟨2, ![1024, 16]⟩ : Shape).Idx → EReal) (r : Fin 1024) : EReal :=
  max (Ideal.ofBits .f32 0xFF800000#32)
    ((Finset.univ : Finset (Fin 16)).fold max (Ideal.ofBits .f32 0xFF800000#32) (fun k => l (ix2 r k)))

/-- An entry minus its row's maximum. -/
def shifted (l : (⟨2, ![1024, 16]⟩ : Shape).Idx → EReal) : (⟨2, ![1024, 16]⟩ : Shape).Idx → EReal :=
  fun i => l i - rowTop l (i 0)

theorem shifted_apply (l : (⟨2, ![1024, 16]⟩ : Shape).Idx → EReal) (r : Fin 1024) (d : Fin 16) :
    shifted l (ix2 r d) = l (ix2 r d) - rowTop l r := rfl

/-- The row-wise log-softmax. -/
def logSoftmax (l : (⟨2, ![1024, 16]⟩ : Shape).Idx → EReal) : (⟨2, ![1024, 16]⟩ : Shape).Idx → EReal :=
  fun i => shifted l i - Ideal.log (∑ k : Fin 16, Ideal.exp (shifted l (ix2 (i 0) k)))

theorem logSoftmax_apply (l : (⟨2, ![1024, 16]⟩ : Shape).Idx → EReal) (r : Fin 1024) (d : Fin 16) :
    logSoftmax l (ix2 r d) = shifted l (ix2 r d) - Ideal.log (∑ k : Fin 16, Ideal.exp (shifted l (ix2 r k))) := rfl

/-- The head: dense, maximum with zero, dense, log-softmax. -/
def head (p : (⟨2, ![1024, 32]⟩ : Shape).Idx → EReal) (w1 : (⟨2, ![32, 16]⟩ : Shape).Idx → EReal) (b1 : (⟨1, ![16]⟩ : Shape).Idx → EReal)
    (w2 : (⟨2, ![16, 16]⟩ : Shape).Idx → EReal) (b2 : (⟨1, ![16]⟩ : Shape).Idx → EReal) : (⟨2, ![1024, 16]⟩ : Shape).Idx → EReal :=
  logSoftmax (dense (rect (dense p w1 b1)) w2 b2)

end Cert.Head

end
-- ==== Proof.LibRowReduce.lean ====
/-
  A matrix reduced along its rows and the result put back beside every entry, read at an index.

  A kernel that normalises the rows of an [a, b] matrix (a softmax, a layer norm over the last axis) reduces it over
  axis 1 to a vector [a], casts the vector to a column [a, 1] and broadcasts the column to [a, b]. At the ideal
  instance and at position (i, c): the broadcast column reads the column at (i, 0), the column reads the vector at i,
  and the vector at i is the sum, or the maximum from the accumulator's value, over k of the matrix at (i, k) — the
  reduced index i with k put back on the dropped axis is (i, k).
-/
import Idealize.ShloMosaic.PureOps.Ideal.Laws
import Idealize.ShloMosaic.Lib.Pipeline.Value
import Idealize.ShloMosaic.Lib.ValueIdx

noncomputable section

open scoped BigOperators

namespace Idealize.ShloMosaic.RowReduce

open Idealize.ShloMosaic Idealize.ShloMosaic.ValueIdx

variable {α : Type}

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the rows' entries: at i, the sum over k of the matrix at (i, k). -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the rows' entries: at i, the maximum from the accumulator's value over k of the matrix at (i, k). -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f Finset.univ) (funext fun k => congrArg src (lift_row h i k)))

end Idealize.ShloMosaic.RowReduce

end
-- ==== Proof.HeadKernel.lean ====
/-
  The last kernel launch computes the classifier head. Its one grid point loads the pooled features, both weight
  matrices and both bias vectors whole, and stores: the first dense layer (a matrix-unit product into a zero accumulator
  plus the bias laid out as a row and repeated on every row), its maximum with zero, the second dense layer, and the
  row-wise log-softmax (a row maximum from minus infinity, taken once more against minus infinity, laid out as a column
  and repeated along the row; the difference; its exponential summed along the row; the logarithm of that column repeated
  along the row; the difference). The roundings to bf16 are the identity on extended reals. Entry by entry this is the
  head of arrays of extended reals.
-/
import proofs.«180449_j26645977104905_1_alg».proof.Proof.Gen.KernelIdeal.Skeleton
import proofs.«180449_j26645977104905_1_alg».proof.Proof.HeadSpec
import proofs.«180449_j26645977104905_1_alg».proof.Proof.LibDotPlain
import proofs.«180449_j26645977104905_1_alg».proof.Proof.LibRowReduce
import Idealize.ShloMosaic.Lib.ValueLayout
import Idealize.ShloMosaic.Lib.Pipeline.Value
import Idealize.ShloMosaic.Lib.ValueIdx

set_option maxRecDepth 16384

noncomputable section

open scoped BigOperators

namespace Cert.KernelIdeal.Fold

open Cert.KernelIdeal Cert.KernelIdeal.Gen
open Idealize.ShloMosaic Idealize.ShloMosaic.ValueIdx Idealize.ShloMosaic.DotPlain Idealize.ShloMosaic.RowReduce
open Cert.Head

/-! ## The body's stages, named -/

/-- The first dense layer as the body spells it. -/
def kDense1 (p : Vec Ideal S1024x32 .f32) (w : Vec Ideal S32x16 .f32) (b : Vec Ideal S16 .f32) : FVec Ideal S1024x16 .f32 :=
  addf (matmul dot_S1024x32_S32x16_S1024x16_1_0_0_1_n_n none
      (truncf .bf16 (shapeCast S1024x32 p shapeCasts_S1024x32_S1024x32) bitsLt_bf16_f32) (truncf .bf16 w bitsLt_bf16_f32)
      (constant S1024x16 .f32 0x00000000#32))
    (broadcastTo S1024x16 (shapeCast S1x16 b shapeCasts_S16_S1x16) broadcasts_S1x16_S1024x16)

/-- The maximum with zero as the body spells it. -/
def kRect (z : FVec Ideal S1024x16 .f32) : FVec Ideal S1024x16 .f32 :=
  maximumf z (broadcast S1024x16 (Scalar.ofBits (F := Ideal) .f32 0x00000000#32))

/-- The second dense layer as the body spells it. -/
def kDense2 (z : FVec Ideal S1024x16 .f32) (w : Vec Ideal S16x16 .f32) (b : Vec Ideal S16 .f32) : FVec Ideal S1024x16 .f32 :=
  addf (matmul dot_S1024x16_S16x16_S1024x16_1_0_0_1_n_n none
      (truncf .bf16 z bitsLt_bf16_f32) (truncf .bf16 w bitsLt_bf16_f32) (constant S1024x16 .f32 0x00000000#32))
    (broadcastTo S1024x16 (shapeCast S1x16 b shapeCasts_S16_S1x16) broadcasts_S1x16_S1024x16)

/-- The rows' maxima as the body spells them. -/
def kTop (l : FVec Ideal S1024x16 .f32) : FVec Ideal S1024 .f32 :=
  maximumf (broadcast S1024 (Scalar.ofBits (F := Ideal) .f32 0xFF800000#32))
    (multiReduction .maximumf [1] S1024 l 0xFF800000#32 reduces_S1024x16_S1024 (.inl rfl) rfl)

/-- Each entry minus its row's maximum as the body spells it. -/
def kShift (l : FVec Ideal S1024x16 .f32) : FVec Ideal S1024x16 .f32 :=
  subf l (broadcastTo S1024x16 (shapeCast S1024x1 (kTop l) shapeCasts_S1024_S1024x1) broadcasts_S1024x1_S1024x16)

/-- The log-softmax as the body spells it. -/
def kLogSoftmax (l : FVec Ideal S1024x16 .f32) : FVec Ideal S1024x16 .f32 :=
  subf (kShift l)
    (broadcastTo S1024x16
      (log (shapeCast S1024x1 (multiReduction .add [1] S1024 (exp (kShift l)) 0x00000000#32 reduces_S1024x16_S1024 (.inl rfl) rfl)
        shapeCasts_S1024_S1024x1))
      broadcasts_S1024x1_S1024x16)

/-- What the body stores is these stages composed. -/
theorem pay3_stages (p : Vec Ideal S1024x32 .f32) (w1 : Vec Ideal S32x16 .f32) (b1 : Vec Ideal S16 .f32)
    (w2 : Vec Ideal S16x16 .f32) (b2 : Vec Ideal S16 .f32) :
    k3_pay1 (F := Ideal) p w1 b1 w2 b2 = kLogSoftmax (kDense2 (kRect (kDense1 p w1 b1)) w2 b2) := rfl

/-! ## Each stage, entry by entry -/

theorem plain3a : IsPlain dot_S1024x32_S32x16_S1024x16_1_0_0_1_n_n := ⟨rfl, rfl, rfl, rfl, rfl, rfl⟩
theorem plain3b : IsPlain dot_S1024x16_S16x16_S1024x16_1_0_0_1_n_n := ⟨rfl, rfl, rfl, rfl, rfl, rfl⟩

/-- A bias vector laid out as one row and repeated on every row reads, at (r, d), the vector at d. -/
theorem bias_row (b : Vec Ideal S16 .f32) (r : Fin 1024) (d : Fin 16) :
    broadcastTo S1024x16 (shapeCast S1x16 b shapeCasts_S16_S1x16) broadcasts_S1x16_S1024x16 (ix2 r d) = b (ix1 d) :=
  (broadcastTo_1b_ab_apply (shapeCast S1x16 b shapeCasts_S16_S1x16) broadcasts_S1x16_S1024x16 r d).trans
    (shapeCast_a_1a_apply b shapeCasts_S16_S1x16 (0 : Fin 1) d)

theorem kDense1_eq (p : Vec Ideal S1024x32 .f32) (w : Vec Ideal S32x16 .f32) (b : Vec Ideal S16 .f32) :
    kDense1 p w b = dense p w b := by
  funext i
  obtain ⟨r, d, rfl⟩ : ∃ (r : Fin 1024) (d : Fin 16), i = ix2 r d := ⟨i 0, i 1, eq_ix2 i⟩
  unfold kDense1
  rw [shapeCast_self, dense_apply]
  show matmul dot_S1024x32_S32x16_S1024x16_1_0_0_1_n_n none (truncf .bf16 p bitsLt_bf16_f32) (truncf .bf16 w bitsLt_bf16_f32)
      (constant (F := Ideal) S1024x16 .f32 0x00000000#32) (ix2 r d)
    + broadcastTo S1024x16 (shapeCast S1x16 b shapeCasts_S16_S1x16) broadcasts_S1x16_S1024x16 (ix2 r d) = _
  rw [bias_row]
  exact congrArg (· + b (ix1 d))
    (DotPlain.matmul_zero_apply plain3a none (truncf .bf16 p bitsLt_bf16_f32) (truncf .bf16 w bitsLt_bf16_f32) (ix2 r d))

theorem kRect_eq (z : FVec Ideal S1024x16 .f32) : kRect z = rect z := rfl

theorem kDense2_eq (z : FVec Ideal S1024x16 .f32) (w : Vec Ideal S16x16 .f32) (b : Vec Ideal S16 .f32) :
    kDense2 z w b = dense z w b := by
  funext i
  obtain ⟨r, d, rfl⟩ : ∃ (r : Fin 1024) (d : Fin 16), i = ix2 r d := ⟨i 0, i 1, eq_ix2 i⟩
  unfold kDense2
  rw [dense_apply]
  show matmul dot_S1024x16_S16x16_S1024x16_1_0_0_1_n_n none (truncf .bf16 z bitsLt_bf16_f32) (truncf .bf16 w bitsLt_bf16_f32)
      (constant (F := Ideal) S1024x16 .f32 0x00000000#32) (ix2 r d)
    + broadcastTo S1024x16 (shapeCast S1x16 b shapeCasts_S16_S1x16) broadcasts_S1x16_S1024x16 (ix2 r d) = _
  rw [bias_row]
  exact congrArg (· + b (ix1 d))
    (DotPlain.matmul_zero_apply plain3b none (truncf .bf16 z bitsLt_bf16_f32) (truncf .bf16 w bitsLt_bf16_f32) (ix2 r d))

/-- Row r's maximum. -/
theorem kTop_apply (l : FVec Ideal S1024x16 .f32) (r : Fin 1024) : kTop l (ix1 r) = rowTop l r :=
  congrArg (max (Ideal.ofBits .f32 0xFF800000#32))
    (rowMax_apply l 0xFF800000#32 reduces_S1024x16_S1024 (.inl rfl) rfl r)

/-- A vector laid out as a column and repeated along the rows reads, at (r, d), the vector at r. -/
theorem column_row (v : FVec Ideal S1024 .f32) (r : Fin 1024) (d : Fin 16) :
    broadcastTo S1024x16 (shapeCast S1024x1 v shapeCasts_S1024_S1024x1) broadcasts_S1024x1_S1024x16 (ix2 r d) = v (ix1 r) :=
  (broadcastTo_a1_ab_apply (shapeCast S1024x1 v shapeCasts_S1024_S1024x1) broadcasts_S1024x1_S1024x16 r d).trans
    (shapeCast_a_a1_apply v shapeCasts_S1024_S1024x1 r (0 : Fin 1))

theorem kShift_eq (l : FVec Ideal S1024x16 .f32) : kShift l = shifted l := by
  funext i
  obtain ⟨r, d, rfl⟩ : ∃ (r : Fin 1024) (d : Fin 16), i = ix2 r d := ⟨i 0, i 1, eq_ix2 i⟩
  unfold kShift
  rw [shifted_apply]
  show l (ix2 r d) - broadcastTo S1024x16 (shapeCast S1024x1 (kTop l) shapeCasts_S1024_S1024x1) broadcasts_S1024x1_S1024x16 (ix2 r d) = _
  rw [column_row, kTop_apply]

theorem kLogSoftmax_eq (l : FVec Ideal S1024x16 .f32) : kLogSoftmax l = logSoftmax l := by
  funext i
  obtain ⟨r, d, rfl⟩ : ∃ (r : Fin 1024) (d : Fin 16), i = ix2 r d := ⟨i 0, i 1, eq_ix2 i⟩
  unfold kLogSoftmax
  rw [logSoftmax_apply, kShift_eq]
  show shifted l (ix2 r d)
      - broadcastTo S1024x16
          (log (F := Ideal) (shapeCast S1024x1 (multiReduction (F := Ideal) .add [1] S1024 (exp (F := Ideal) (φ := .f32) (shifted l)) 0x00000000#32 reduces_S1024x16_S1024 (.inl rfl) rfl)
            shapeCasts_S1024_S1024x1)) broadcasts_S1024x1_S1024x16 (ix2 r d) = _
  rw [broadcastTo_a1_ab_apply]
  show shifted l (ix2 r d)
      - Ideal.log (shapeCast S1024x1 (multiReduction (F := Ideal) .add [1] S1024 (exp (F := Ideal) (φ := .f32) (shifted l)) 0x00000000#32 reduces_S1024x16_S1024 (.inl rfl) rfl)
            shapeCasts_S1024_S1024x1 (ix2 r (0 : Fin 1))) = _
  rw [shapeCast_a_a1_apply]
  exact congrArg (fun s => shifted l (ix2 r d) - Ideal.log s)
    (rowSum_apply (exp (F := Ideal) (φ := .f32) (shifted l)) 0x00000000#32 reduces_S1024x16_S1024 (.inl rfl) rfl r)

/-- What the last launch's grid point stores is the head of the arrays it loads. -/
theorem pay3_eq (p : Vec Ideal S1024x32 .f32) (w1 : Vec Ideal S32x16 .f32) (b1 : Vec Ideal S16 .f32)
    (w2 : Vec Ideal S16x16 .f32) (b2 : Vec Ideal S16 .f32) :
    k3_pay1 (F := Ideal) p w1 b1 w2 b2 = head p w1 b1 w2 b2 := by
  rw [pay3_stages, kLogSoftmax_eq, kDense2_eq, kRect_eq, kDense1_eq]
  rfl

end Cert.KernelIdeal.Fold

end
-- ==== Proof.HeadLaunch.lean ====
/-
  The last kernel launch as a function of the arrays it reads. Its grid has one point and every window's block is its whole
  array, so the block the point loads from each array is the array, and the block it writes back covers the output array:
  after the launch the output array is what the body stores, the head of the pooled features and the four parameter
  arrays.
-/
import proofs.«180449_j26645977104905_1_alg».proof.Proof.Gen.KernelIdeal.Frame
import proofs.«180449_j26645977104905_1_alg».proof.Proof.HeadKernel
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)
open Idealize.ShloMosaic.ValueIdx
open Cert.Head

theorem zero_off3_2 : (![0, 0] : Fin 2 → Nat) = fun _ => 0 := funext fun a => by fin_cases a <;> rfl
theorem zero_off3_1 : (![0] : Fin 1 → Nat) = fun _ => 0 := funext fun a => by fin_cases a <;> rfl

/-- At the launch's one grid point every block index is zero. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

section
variable (V : (c : Dev nD) → (b : Ref sig .tc) → Buf (Elt Ideal) ((c : Thread nD τ).loc b))

/-- What the grid point writes back is the whole head array, read through the output's (whole) block. -/
theorem flushed3 (c : Dev nD) (t : Fin cfg3.N) :
    (dat3 V c).flushed 5 t = ((cfg3.win 5).blk t).view.read (Elt Ideal)
      (head (V c main_v125) (V c main_arg9) (V c main_arg10) (V c main_arg11) (V c main_arg12)) := by
  show (cfg3.win 5).cut (grid3.coords t) ((dat3 V c).after 5 t) = _
  rw [after3_5]
  unfold out3_5
  rw [View.canon_unit_zero zero_off3_2]
  simp only [View.ld_unit_zero (S := S1024x32) zero_off3_2, View.ld_unit_zero (S := S32x16) zero_off3_2,
    View.ld_unit_zero (S := S16) zero_off3_1, View.ld_unit_zero (S := S16x16) zero_off3_2]
  obtain ⟨e0, e1, e2, e3, e4, e5, e6, e7, e8, e9⟩ := idx_facts3 t
  have b0 : iblk3 V c 0 t = V c main_v125 := funext fun (y : S1024x32.Idx) => by
    show V c main_v125 (((cfg3.win 0).blk t).view.emb y) = V c main_v125 y
    refine congrArg (V c main_v125) (funext fun a => Fin.ext ?_)
    match a with
    | ⟨0, _⟩ => show win3_0.index t (0 : Fin 2) * 1024 + 1 * (y 0).val = (y 0).val; omega
    | ⟨1, _⟩ => show win3_0.index t (1 : Fin 2) * 32 + 1 * (y 1).val = (y 1).val; omega
  have b1 : iblk3 V c 1 t = V c main_arg9 := funext fun (y : S32x16.Idx) => by
    show V c main_arg9 (((cfg3.win 1).blk t).view.emb y) = V c main_arg9 y
    refine congrArg (V c main_arg9) (funext fun a => Fin.ext ?_)
    match a with
    | ⟨0, _⟩ => show win3_1.index t (0 : Fin 2) * 32 + 1 * (y 0).val = (y 0).val; omega
    | ⟨1, _⟩ => show win3_1.index t (1 : Fin 2) * 16 + 1 * (y 1).val = (y 1).val; omega
  have b2 : iblk3 V c 2 t = V c main_arg10 := funext fun (y : S16.Idx) => by
    show V c main_arg10 (((cfg3.win 2).blk t).view.emb y) = V c main_arg10 y
    refine congrArg (V c main_arg10) (funext fun a => Fin.ext ?_)
    match a with
    | ⟨0, _⟩ => show win3_2.index t (0 : Fin 1) * 16 + 1 * (y 0).val = (y 0).val; omega
  have b3 : iblk3 V c 3 t = V c main_arg11 := funext fun (y : S16x16.Idx) => by
    show V c main_arg11 (((cfg3.win 3).blk t).view.emb y) = V c main_arg11 y
    refine congrArg (V c main_arg11) (funext fun a => Fin.ext ?_)
    match a with
    | ⟨0, _⟩ => show win3_3.index t (0 : Fin 2) * 16 + 1 * (y 0).val = (y 0).val; omega
    | ⟨1, _⟩ => show win3_3.index t (1 : Fin 2) * 16 + 1 * (y 1).val = (y 1).val; omega
  have b4 : iblk3 V c 4 t = V c main_arg12 := funext fun (y : S16.Idx) => by
    show V c main_arg12 (((cfg3.win 4).blk t).view.emb y) = V c main_arg12 y
    refine congrArg (V c main_arg12) (funext fun a => Fin.ext ?_)
    match a with
    | ⟨0, _⟩ => show win3_4.index t (0 : Fin 1) * 16 + 1 * (y 0).val = (y 0).val; omega
  funext y
  show k3_pay1 (iblk3 V c 0 t) (iblk3 V c 1 t) (iblk3 V c 2 t) (iblk3 V c 3 t) (iblk3 V c 4 t) y
    = head (V c main_v125) (V c main_arg9) (V c main_arg10) (V c main_arg11) (V c main_arg12) (((cfg3.win 5).blk t).view.emb y)
  have hy : ((cfg3.win 5).blk t).view.emb y = y := funext fun a => Fin.ext (by
    match a with
    | ⟨0, _⟩ => show win3_5.index t (0 : Fin 2) * 1024 + 1 * (y 0).val = (y 0).val; omega
    | ⟨1, _⟩ => show win3_5.index t (1 : Fin 2) * 16 + 1 * (y 1).val = (y 1).val; omega)
  rw [hy, b0, b1, b2, b3, b4]
  exact congrFun (pay3_eq (V c main_v125) (V c main_arg9) (V c main_arg10) (V c main_arg11) (V c main_arg12)) y

/-- An index of the output array is in the point's block iff each coordinate is in the block's range on its axis. -/
theorem mem_blk3 (t : Fin cfg3.N) (i : S1024x16.Idx) :
    i ∈ ((cfg3.win 5).blk t).view.set ↔ ∀ a : Fin 2, win3_5.index t a * S1024x16.size a ≤ (i a).val ∧ (i a).val < win3_5.index t a * S1024x16.size a + S1024x16.size a := by
  show i ∈ ((View.whole main_v126).slice (win3_5.rect t)).set ↔ _
  rw [View.set_slice_whole, Rect.mem_set_unit]
  exact Iff.rfl

/-- The one block covers the output array. -/
theorem cover3 (i : S1024x16.Idx) : ∃ t : Fin cfg3.N, (cfg3.win 5).flush t = true ∧ i ∈ ((cfg3.win 5).blk t).view.set := by
  have hi0 : (i 0).val < 1024 := (i 0).isLt
  have hi1 : (i 1).val < 16 := (i 1).isLt
  refine ⟨t3_0, flush3_5 _, ?_⟩
  obtain ⟨e0, e1, e2, e3, e4, e5, e6, e7, e8, e9⟩ := idx_facts3 t3_0
  rw [mem_blk3]
  intro a
  match a with
  | ⟨0, _⟩ =>
    show win3_5.index t3_0 (0 : Fin 2) * 1024 ≤ (i 0).val ∧ (i 0).val < win3_5.index t3_0 (0 : Fin 2) * 1024 + 1024
    rw [e8]; omega
  | ⟨1, _⟩ =>
    show win3_5.index t3_0 (1 : Fin 2) * 16 ≤ (i 1).val ∧ (i 1).val < win3_5.index t3_0 (1 : Fin 2) * 16 + 16
    rw [e9]; omega

/-- After the launch its output array is the head of the arrays it read. -/
theorem head_launch (c : Dev nD) : (dat3 V c).arrAt 5 cfg3.N
    = head (V c main_v125) (V c main_arg9) (V c main_arg10) (V c main_arg11) (V c main_arg12) :=
  (dat3 V c).arrAt_eq_of_cover 5 _ (fun t _ => flushed3 V c t) (cover3)

end

end Cert.KernelIdeal.Fold

end
-- ==== Proof.HostRecompute.lean ====
/-
  The reference computes the degree-based weights of the edges and of the self loops anew for every layer, by the same
  operations from the same edge array: the later layers' weights are the first layer's.
-/
import proofs.«180449_j26645977104905_1_alg».proof.Proof.Gen.KernelIdeal.Launch
import proofs.«180449_j26645977104905_1_alg».proof.Proof.RefRead
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

/-! ## What the reference recomputes for every layer is what it computed for the first -/

section
variable (x1 : (⟨S2x3200000, .i32⟩ : BufTy).Contents (Elt Ideal))

theorem norm_layer2 : val_main_v88 (F := Ideal) x1 = val_main_v32 (F := Ideal) x1 := rfl
theorem self_layer2 : val_main_v107 (F := Ideal) x1 = val_main_v51 (F := Ideal) x1 := rfl
theorem norm_layer3 : val_main_v144 (F := Ideal) x1 = val_main_v32 (F := Ideal) x1 := rfl
theorem self_layer3 : val_main_v163 (F := Ideal) x1 = val_main_v51 (F := Ideal) x1 := rfl

end

end Cert.KernelIdeal.Fold

end
-- ==== Proof.HostEdges.lean ====
/-
  Before the first kernel launch the host computes, from the edge array alone, the source and target node of every edge
  (with jax's wrap of negative indices left to each use) and the degree-based weights of the edges and of the self loops: the
  same operations as the reference's, so the arrays hold the reference's stages. No argument array is written.
-/
import proofs.«180449_j26645977104905_1_alg».proof.Proof.Gen.KernelIdeal.Launch
import proofs.«180449_j26645977104905_1_alg».proof.Proof.RefRead
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

/-! ## Before the first launch: the edges' ends and the normalisation weights -/

section
variable (V : Valuation τ sig (Elt Ideal)) (x1 : (⟨S2x3200000, .i32⟩ : BufTy).Contents (Elt Ideal)) (h : V (Proc.devRef .tc main_arg1) = x1)
include h

theorem src_of : StableHlo.after hostOps0 V (Proc.devRef .tc main_v1) = val_main_v1 (F := Ideal) x1 := by
  subst h; dsimp only [hostOps0]; after_results_simp; rfl
theorem dst_of : StableHlo.after hostOps0 V (Proc.devRef .tc main_v3) = val_main_v3 (F := Ideal) x1 := by
  subst h; dsimp only [hostOps0]; after_results_simp; rfl
theorem norm_of : StableHlo.after hostOps0 V (Proc.devRef .tc main_v31) = val_main_v32 (F := Ideal) x1 := by
  subst h; dsimp only [hostOps0]; after_results_simp; rfl
theorem self_of : StableHlo.after hostOps0 V (Proc.devRef .tc main_v32) = val_main_v51 (F := Ideal) x1 := by
  subst h; dsimp only [hostOps0]; after_results_simp; rfl

end

/-- The operations before the first launch write no argument array. -/
theorem arg_of (V : Valuation τ sig (Elt Ideal)) (r : Ref sig .tc)
    (hr : r ∈ ([main_arg0, main_arg2, main_arg3, main_arg4, main_arg5, main_arg6, main_arg7, main_arg8, main_arg9, main_arg10, main_arg11, main_arg12] : List (Ref sig .tc))) :
    StableHlo.after hostOps0 V (Proc.devRef .tc r) = V (Proc.devRef .tc r) := by
  simp only [List.mem_cons, List.mem_nil_iff, or_false] at hr
  rcases hr with rfl | rfl | rfl | rfl | rfl | rfl | rfl | rfl | rfl | rfl | rfl | rfl <;>
    (dsimp only [hostOps0]; after_results_simp)

end Cert.KernelIdeal.Fold

end
-- ==== Proof.LibTypedRef.lean ====
/-
  Contents moved to a typed reference's own buffer type and back.

  A typed reference carries the type T of the tensor value its buffer holds, with a proof that the buffer's declared type is
  T; contents at T are moved to contents of the buffer along that proof, and back. Moving there and back again is the
  identity, whatever the proof is: so an operation applied to contents that were put into its operands' buffers by these
  moves acts on the original contents.
-/
import Idealize.ShloMosaic.Lib.StableHlo

namespace Idealize.ShloMosaic.TypedRef

open Idealize.ShloMosaic Idealize.ShloMosaic.StableHlo

variable {sig : RefSig} {Val : EltTy → Type} {T : BufTy}

/-- Into the buffer's type and back. -/
theorem ofBuf_toBuf (x : TRef sig T) (w : T.Contents Val) : x.ofBuf (x.toBuf w) = w := by
  obtain ⟨r, h, d, u⟩ := x
  subst h
  rfl

/-- Out of the buffer's type and back into it. -/
theorem toBuf_ofBuf (x : TRef sig T) (v : x.ref.ty.Contents Val) : x.toBuf (x.ofBuf v) = v := by
  obtain ⟨r, h, d, u⟩ := x
  subst h
  rfl

end Idealize.ShloMosaic.TypedRef
-- ==== Proof.HostLayer1.lean ====
/-
  The first layer's host operations after its linear launch: gather along the edges, scaling by the edge weights, scatter-add
  into the target nodes, the self-loop term and the bias — the reference's operations, run from contents that agree with the
  reference's stages on what they read — and then the maximum with zero, which the program spells as a call through typed
  references: that stretch is followed once over any input array, so that the moves into and out of the references' buffer
  types sit on a variable.
-/
import proofs.«180449_j26645977104905_1_alg».proof.Proof.Gen.KernelIdeal.Launch
import proofs.«180449_j26645977104905_1_alg».proof.Proof.RefRead
import Idealize.ShloMosaic.Lib.StableHlo.Run
import proofs.«180449_j26645977104905_1_alg».proof.Proof.LibTypedRef
set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP
open Idealize.ShloMosaic.TypedRef

/-! ## The maximum with zero, over any input -/

theorem relu1_of (W : Valuation τ sig (Elt Ideal)) (z : (⟨S100000x64, .f32⟩ : BufTy).Contents (Elt Ideal))
    (hz : W (Proc.devRef .tc main_v58) = z) :
    StableHlo.after hostOps1_1 W (Proc.devRef .tc main_v59)
      = maximumf z (broadcastInDim S100000x64 ![] bcast_S_S100000x64 (constant (F := Ideal) S_ .f32 0x00000000#32)) := by
  dsimp only [hostOps1_1]
  after_results_simp
  rw [hz]
  simp only [ofBuf_toBuf]
  rfl

/-! ## The aggregation and the bias -/

section
variable (V : Valuation τ sig (Elt Ideal)) (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal))
  (h1 : V (Proc.devRef .tc main_v1) = val_main_v1 (F := Ideal) x1) (h3 : V (Proc.devRef .tc main_v3) = val_main_v3 (F := Ideal) x1)
  (hn : V (Proc.devRef .tc main_v31) = val_main_v32 (F := Ideal) x1) (hs : V (Proc.devRef .tc main_v32) = val_main_v51 (F := Ideal) x1)
  (hl : V (Proc.devRef .tc main_v33) = val_main_v4 (F := Ideal) x0 x3) (hb : V (Proc.devRef .tc main_arg4) = x4)
include h1 h3 hn hs hl hb

theorem agg1_of : StableHlo.after hostOps1 V (Proc.devRef .tc main_v58) = val_main_v58 (F := Ideal) x0 x1 x3 x4 := by
  dsimp only [hostOps1]
  after_results_simp
  rw [h1, h3, hn, hs, hl, hb]
  rfl

/-- The layer's activations. -/
theorem layer1_of :
    StableHlo.after hostOps1_1 (StableHlo.after hostOps1 V) (Proc.devRef .tc main_v59) = val_main_v59 (F := Ideal) x0 x1 x3 x4 :=
  (relu1_of (StableHlo.after hostOps1 V) _ (agg1_of V x0 x1 x3 x4 h1 h3 hn hs hl hb)).trans rfl

end

end Cert.KernelIdeal.Fold

end
-- ==== Proof.HostLayer2.lean ====
/-
  The second layer's host operations after its linear launch — gather along the edges, scaling, scatter-add into the target
  nodes, the self-loop term, the bias — and its maximum with zero, as the first layer's; the reference computes this layer's
  normalisation weights anew, so the hypotheses name those stages.
-/
import proofs.«180449_j26645977104905_1_alg».proof.Proof.Gen.KernelIdeal.Launch
import proofs.«180449_j26645977104905_1_alg».proof.Proof.RefRead
import Idealize.ShloMosaic.Lib.StableHlo.Run
import proofs.«180449_j26645977104905_1_alg».proof.Proof.LibTypedRef
set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP
open Idealize.ShloMosaic.TypedRef

/-! ## The maximum with zero, over any input -/

theorem relu2_of (W : Valuation τ sig (Elt Ideal)) (z : (⟨S100000x64, .f32⟩ : BufTy).Contents (Elt Ideal))
    (hz : W (Proc.devRef .tc main_v85) = z) :
    StableHlo.after hostOps2_1 W (Proc.devRef .tc main_v86)
      = maximumf z (broadcastInDim S100000x64 ![] bcast_S_S100000x64 (constant (F := Ideal) S_ .f32 0x00000000#32)) := by
  dsimp only [hostOps2_1]
  after_results_simp
  rw [hz]
  simp only [ofBuf_toBuf]
  rfl

/-! ## The aggregation and the bias -/

section
variable (V : Valuation τ sig (Elt Ideal)) (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (h1 : V (Proc.devRef .tc main_v1) = val_main_v1 (F := Ideal) x1) (h3 : V (Proc.devRef .tc main_v3) = val_main_v3 (F := Ideal) x1)
  (hn : V (Proc.devRef .tc main_v31) = val_main_v88 (F := Ideal) x1) (hs : V (Proc.devRef .tc main_v32) = val_main_v107 (F := Ideal) x1)
  (hl : V (Proc.devRef .tc main_v60) = val_main_v60 (F := Ideal) x0 x1 x3 x4 x5) (hb : V (Proc.devRef .tc main_arg6) = x6)
include h1 h3 hn hs hl hb

theorem agg2_of : StableHlo.after hostOps2 V (Proc.devRef .tc main_v85) = val_main_v114 (F := Ideal) x0 x1 x3 x4 x5 x6 := by
  dsimp only [hostOps2]
  after_results_simp
  rw [h1, h3, hn, hs, hl, hb]
  rfl

/-- The layer's activations. -/
theorem layer2_of :
    StableHlo.after hostOps2_1 (StableHlo.after hostOps2 V) (Proc.devRef .tc main_v86) = val_main_v115 (F := Ideal) x0 x1 x3 x4 x5 x6 :=
  (relu2_of (StableHlo.after hostOps2 V) _ (agg2_of V x0 x1 x3 x4 x5 x6 h1 h3 hn hs hl hb)).trans rfl

end

end Cert.KernelIdeal.Fold

end
-- ==== Proof.HostLayer3.lean ====
/-
  The third layer's host operations after its linear launch and its maximum with zero, as the first layer's, and then the
  mean over each graph's nodes: the per-graph sums of the activations and of ones by scatter-add along the graph index of
  every node, the sizes floored at one, the quotient.
-/
import proofs.«180449_j26645977104905_1_alg».proof.Proof.Gen.KernelIdeal.Launch
import proofs.«180449_j26645977104905_1_alg».proof.Proof.RefRead
import Idealize.ShloMosaic.Lib.StableHlo.Run
import proofs.«180449_j26645977104905_1_alg».proof.Proof.LibTypedRef
set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP
open Idealize.ShloMosaic.TypedRef

/-! ## The maximum with zero, over any input -/

theorem relu3_of (W : Valuation τ sig (Elt Ideal)) (z : (⟨S100000x32, .f32⟩ : BufTy).Contents (Elt Ideal))
    (hz : W (Proc.devRef .tc main_v112) = z) :
    StableHlo.after hostOps3_1 W (Proc.devRef .tc main_v113)
      = maximumf z (broadcastInDim S100000x32 ![] bcast_S_S100000x32 (constant (F := Ideal) S_ .f32 0x00000000#32)) := by
  dsimp only [hostOps3_1]
  after_results_simp
  rw [hz]
  simp only [ofBuf_toBuf]
  rfl

/-! ## The aggregation and the bias -/

section
variable (V : Valuation τ sig (Elt Ideal)) (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal))
  (h1 : V (Proc.devRef .tc main_v1) = val_main_v1 (F := Ideal) x1) (h3 : V (Proc.devRef .tc main_v3) = val_main_v3 (F := Ideal) x1)
  (hn : V (Proc.devRef .tc main_v31) = val_main_v144 (F := Ideal) x1) (hs : V (Proc.devRef .tc main_v32) = val_main_v163 (F := Ideal) x1)
  (hl : V (Proc.devRef .tc main_v87) = val_main_v116 (F := Ideal) x0 x1 x3 x4 x5 x6 x7) (hb : V (Proc.devRef .tc main_arg8) = x8)
include h1 h3 hn hs hl hb

theorem agg3_of : StableHlo.after hostOps3 V (Proc.devRef .tc main_v112) = val_main_v170 (F := Ideal) x0 x1 x3 x4 x5 x6 x7 x8 := by
  dsimp only [hostOps3]
  after_results_simp
  rw [h1, h3, hn, hs, hl, hb]
  rfl

/-- The layer's activations. -/
theorem layer3_of :
    StableHlo.after hostOps3_1 (StableHlo.after hostOps3 V) (Proc.devRef .tc main_v113) = val_main_v171 (F := Ideal) x0 x1 x3 x4 x5 x6 x7 x8 :=
  (relu3_of (StableHlo.after hostOps3 V) _ (agg3_of V x0 x1 x3 x4 x5 x6 x7 x8 h1 h3 hn hs hl hb)).trans rfl

end

/-! ## The mean over each graph's nodes -/

/-- The pooling stretch from contents that hold the third layer's activations and the nodes' graph indices. -/
theorem pool_of (W : Valuation τ sig (Elt Ideal)) (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal))
    (ha : W (Proc.devRef .tc main_v113) = val_main_v171 (F := Ideal) x0 x1 x3 x4 x5 x6 x7 x8) (hg : W (Proc.devRef .tc main_arg2) = x2) :
    StableHlo.after hostOps3_2 W (Proc.devRef .tc main_v125) = val_main_v183 (F := Ideal) x0 x1 x2 x3 x4 x5 x6 x7 x8 := by
  dsimp only [hostOps3_2]
  after_results_simp
  rw [ha, hg]
  rfl

/-- Neither the layer's operations nor its maximum with zero writes the nodes' graph indices. -/
theorem graph_kept (V : Valuation τ sig (Elt Ideal)) :
    StableHlo.after hostOps3_1 (StableHlo.after hostOps3 V) (Proc.devRef .tc main_arg2) = V (Proc.devRef .tc main_arg2) := by
  dsimp only [hostOps3, hostOps3_1]
  after_results_simp

section
variable (V : Valuation τ sig (Elt Ideal)) (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal))
  (h1 : V (Proc.devRef .tc main_v1) = val_main_v1 (F := Ideal) x1) (h3 : V (Proc.devRef .tc main_v3) = val_main_v3 (F := Ideal) x1)
  (hn : V (Proc.devRef .tc main_v31) = val_main_v144 (F := Ideal) x1) (hs : V (Proc.devRef .tc main_v32) = val_main_v163 (F := Ideal) x1)
  (hl : V (Proc.devRef .tc main_v87) = val_main_v116 (F := Ideal) x0 x1 x3 x4 x5 x6 x7) (hb : V (Proc.devRef .tc main_arg8) = x8)
  (hg : V (Proc.devRef .tc main_arg2) = x2)
include h1 h3 hn hs hl hb hg

/-- The pooled features. -/
theorem pooled_of :
    StableHlo.after hostOps3_2 (StableHlo.after hostOps3_1 (StableHlo.after hostOps3 V)) (Proc.devRef .tc main_v125)
      = val_main_v183 (F := Ideal) x0 x1 x2 x3 x4 x5 x6 x7 x8 :=
  pool_of _ x0 x1 x2 x3 x4 x5 x6 x7 x8 (layer3_of V x0 x1 x3 x4 x5 x6 x7 x8 h1 h3 hn hs hl hb) ((graph_kept V).trans hg)

end

end Cert.KernelIdeal.Fold

end
-- ==== Proof.LibHostRowMax.lean ====
/-
  The host's reduction of a matrix along its rows, read at an index.

  A reference that takes the maximum of each row of an [a, b] matrix reduces it over axis 1 with the maximum from an
  initial value. At the ideal instance and at row i the result is the fold of the maximum, from the initial value, over k of
  the matrix at (i, k): the reduced index i with k put back on the dropped axis is (i, k).
-/
import Idealize.ShloMosaic.PureOps.Ideal.Laws
import Idealize.ShloMosaic.Lib.ValueIdx

noncomputable section

namespace Idealize.ShloMosaic.HostRowMax

open Idealize.ShloMosaic Idealize.ShloMosaic.ValueIdx

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The host's maximum over the rows' entries: at i, the fold of the maximum, from the initial value, over k of the
    matrix at (i, k). -/
theorem hostRowMax_apply {a b : ℕ} {u : Shape} (x : FVec Ideal ⟨2, ![a, b]⟩ .f32) (init : u.Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Idealize.ShloMosaic.HostRowMax

end
-- ==== Proof.HeadRef.lean ====
/-
  The reference computes the classifier head on the host: two matrix products with a bias row repeated on every row, a
  maximum with zero between them, and jax's log-softmax (a row maximum reduced from minus infinity and taken once more
  against minus infinity, repeated along the row and subtracted; the exponentials summed along the row from zero; the
  logarithm repeated along the row and subtracted). Read entry by entry, stage by stage, this is the head of arrays of
  extended reals applied to the pooled features and the four parameter arrays.
-/
import proofs.«180449_j26645977104905_1_alg».proof.Proof.RefRead
import proofs.«180449_j26645977104905_1_alg».proof.Proof.HeadSpec
import proofs.«180449_j26645977104905_1_alg».proof.Proof.LibHostRowMax
import Idealize.ShloMosaic.Lib.ValueIdx

set_option maxRecDepth 16384

noncomputable section

open scoped BigOperators

namespace Cert.ReferenceIdeal.RefHead

open Cert.ReferenceIdeal Cert.ReferenceIdeal.Gen Cert.ReferenceIdeal.ReadP
open Idealize.ShloMosaic Idealize.ShloMosaic.ValueIdx
open Cert.Head

/-! ## The stages' index maps at an entry (r, d) -/

theorem lidx1 (r : Fin 1024) (d : Fin 16) (k : Fin 32) : lidx_main_v184 (ix2 r d) k = ix2 r k :=
  funext fun a => Fin.ext (by match a with | ⟨0, _⟩ => rfl | ⟨1, _⟩ => rfl)
theorem ridx1 (r : Fin 1024) (d : Fin 16) (k : Fin 32) : ridx_main_v184 (ix2 r d) k = ix2 k d :=
  funext fun a => Fin.ext (by match a with | ⟨0, _⟩ => rfl | ⟨1, _⟩ => rfl)
theorem bidx1 (r : Fin 1024) (d : Fin 16) : idx_main_v185 (idx_main_v186 (ix2 r d)) = ix1 d :=
  funext fun a => Fin.ext (by match a with | ⟨0, _⟩ => rfl)
theorem lidx2 (r : Fin 1024) (d : Fin 16) (k : Fin 16) : lidx_main_v189 (ix2 r d) k = ix2 r k :=
  funext fun a => Fin.ext (by match a with | ⟨0, _⟩ => rfl | ⟨1, _⟩ => rfl)
theorem ridx2 (r : Fin 1024) (d : Fin 16) (k : Fin 16) : ridx_main_v189 (ix2 r d) k = ix2 k d :=
  funext fun a => Fin.ext (by match a with | ⟨0, _⟩ => rfl | ⟨1, _⟩ => rfl)
theorem bidx2 (r : Fin 1024) (d : Fin 16) : idx_main_v190 (idx_main_v191 (ix2 r d)) = ix1 d :=
  funext fun a => Fin.ext (by match a with | ⟨0, _⟩ => rfl)
theorem tidx (r : Fin 1024) (d : Fin 16) : idx_main_call4_v3 (idx_main_call4_v4 (ix2 r d)) = ix1 r :=
  funext fun a => Fin.ext (by match a with | ⟨0, _⟩ => rfl)
theorem sidx (r : Fin 1024) (d : Fin 16) (k : Fin 16) :
    idx_main_call4_v7 (idx_main_call4_v8 (idx_main_call4_v10 (ix2 r d))) k = ix2 r k :=
  funext fun a => Fin.ext (by match a with | ⟨0, _⟩ => rfl | ⟨1, _⟩ => rfl)

section
variable (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal))

/-- The first product plus its bias is a dense layer of the pooled features. -/
theorem pre1_eq : val_main_v187 (F := Ideal) x0 x1 x2 x3 x4 x5 x6 x7 x8 x9 x10 = dense (val_main_v183 (F := Ideal) x0 x1 x2 x3 x4 x5 x6 x7 x8) x9 x10 := by
  funext i
  obtain ⟨r, d, rfl⟩ : ∃ (r : Fin 1024) (d : Fin 16), i = ix2 r d := ⟨i 0, i 1, eq_ix2 i⟩
  rw [val_main_v187_apply, val_main_v184_apply, val_main_v186_apply, val_main_v185_apply, dense_apply, bidx1]
  simp only [lidx1, ridx1]
  rfl

/-- Its maximum with zero. -/
theorem hid_eq : val_main_v188 (F := Ideal) x0 x1 x2 x3 x4 x5 x6 x7 x8 x9 x10 = rect (val_main_v187 (F := Ideal) x0 x1 x2 x3 x4 x5 x6 x7 x8 x9 x10) := by
  funext i
  rw [val_main_v188_apply, val_main_call3_v0_apply, val_main_call3_cst_apply]
  rfl

/-- The second product plus its bias is a dense layer of the hidden array. -/
theorem pre2_eq : val_main_v192 (F := Ideal) x0 x1 x2 x3 x4 x5 x6 x7 x8 x9 x10 x11 x12 = dense (val_main_v188 (F := Ideal) x0 x1 x2 x3 x4 x5 x6 x7 x8 x9 x10) x11 x12 := by
  funext i
  obtain ⟨r, d, rfl⟩ : ∃ (r : Fin 1024) (d : Fin 16), i = ix2 r d := ⟨i 0, i 1, eq_ix2 i⟩
  rw [val_main_v192_apply, val_main_v189_apply, val_main_v191_apply, val_main_v190_apply, dense_apply, bidx2]
  simp only [lidx2, ridx2]
  rfl

/-- Row r's maximum. -/
theorem top_eq (r : Fin 1024) :
    val_main_call4_v2 (F := Ideal) x0 x1 x2 x3 x4 x5 x6 x7 x8 x9 x10 x11 x12 (ix1 r) = rowTop (val_main_v192 (F := Ideal) x0 x1 x2 x3 x4 x5 x6 x7 x8 x9 x10 x11 x12) r := by
  rw [val_main_call4_v2_apply, val_main_call4_v1_apply, val_main_call4_cst_0_apply]
  unfold val_main_call4_v0
  rw [Idealize.ShloMosaic.HostRowMax.hostRowMax_apply (val_main_v192 (F := Ideal) x0 x1 x2 x3 x4 x5 x6 x7 x8 x9 x10 x11 x12) (val_main_call4_cst (F := Ideal))
    reducesTo_S1024x16_S1024_d1 (by decide) h_S_ r]
  rfl

/-- Each entry minus its row's maximum. -/
theorem shift_eq : val_main_call4_v5 (F := Ideal) x0 x1 x2 x3 x4 x5 x6 x7 x8 x9 x10 x11 x12 = shifted (val_main_v192 (F := Ideal) x0 x1 x2 x3 x4 x5 x6 x7 x8 x9 x10 x11 x12) := by
  funext i
  obtain ⟨r, d, rfl⟩ : ∃ (r : Fin 1024) (d : Fin 16), i = ix2 r d := ⟨i 0, i 1, eq_ix2 i⟩
  rw [val_main_call4_v5_apply, val_main_call4_v4_apply, val_main_call4_v3_apply, tidx, top_eq, shifted_apply]
  rfl

/-- The exponentials of the shifted entries. -/
theorem exps_eq : val_main_call4_v6 (F := Ideal) x0 x1 x2 x3 x4 x5 x6 x7 x8 x9 x10 x11 x12 = Host.exp (F := Ideal) (φ := .f32) (shifted (val_main_v192 (F := Ideal) x0 x1 x2 x3 x4 x5 x6 x7 x8 x9 x10 x11 x12)) := by
  unfold val_main_call4_v6
  rw [shift_eq]

/-- The log-softmax of the second dense layer. -/
theorem logits_eq : val_main_v193 (F := Ideal) x0 x1 x2 x3 x4 x5 x6 x7 x8 x9 x10 x11 x12 = logSoftmax (val_main_v192 (F := Ideal) x0 x1 x2 x3 x4 x5 x6 x7 x8 x9 x10 x11 x12) := by
  funext i
  obtain ⟨r, d, rfl⟩ : ∃ (r : Fin 1024) (d : Fin 16), i = ix2 r d := ⟨i 0, i 1, eq_ix2 i⟩
  rw [val_main_v193_apply, val_main_call4_v10_apply, val_main_call4_v9_apply, val_main_call4_v8_apply, val_main_call4_v7_apply,
    val_main_call4_cst_1_apply, exps_eq, shift_eq, logSoftmax_apply]
  simp only [sidx]
  generalize shifted (val_main_v192 (F := Ideal) x0 x1 x2 x3 x4 x5 x6 x7 x8 x9 x10 x11 x12) = S
  show S (ix2 r d) - Ideal.log (Ideal.ofBits .f32 0x00000000#32 + ∑ k : Fin 16, Ideal.exp (S (ix2 r k)))
    = S (ix2 r d) - Ideal.log (∑ k : Fin 16, Ideal.exp (S (ix2 r k)))
  rw [Ideal.ofBits_zero_f32, zero_add]

/-- The reference's result is the head of the pooled features and the four parameter arrays. -/
theorem result_eq :
    val_main_v193 (F := Ideal) x0 x1 x2 x3 x4 x5 x6 x7 x8 x9 x10 x11 x12 = head (val_main_v183 (F := Ideal) x0 x1 x2 x3 x4 x5 x6 x7 x8) x9 x10 x11 x12 := by
  rw [logits_eq, pre2_eq, hid_eq, pre1_eq]
  rfl

end

end Cert.ReferenceIdeal.RefHead

end
-- ==== Proof.Simulation.lean ====
/-
  The idealized kernel's result is the reference's last stage of the arguments. Walking the program's segments from the
  launch memory: the host operations before the first launch leave the edges' ends and the normalisation weights at the
  reference's stages; each of the three linear launches leaves the matrix product of the activations and the layer's
  weights, which is the reference's dot product; each layer's host operations, run from contents that agree with the
  reference on what they read (the carried edge data and weights, the launch's product, the bias), leave the reference's
  activations; the last host stretch leaves the pooled features; and the last launch leaves their head, which is the
  reference's log-softmax output. Arrays computed early are read late: they are carried across the later segments, none of
  which writes them.
-/
import proofs.«180449_j26645977104905_1_alg».proof.Proof.Carry
import proofs.«180449_j26645977104905_1_alg».proof.Proof.Linear0
import proofs.«180449_j26645977104905_1_alg».proof.Proof.Linear1
import proofs.«180449_j26645977104905_1_alg».proof.Proof.Linear2
import proofs.«180449_j26645977104905_1_alg».proof.Proof.HeadLaunch
import proofs.«180449_j26645977104905_1_alg».proof.Proof.HostRecompute
import proofs.«180449_j26645977104905_1_alg».proof.Proof.HostEdges
import proofs.«180449_j26645977104905_1_alg».proof.Proof.HostLayer1
import proofs.«180449_j26645977104905_1_alg».proof.Proof.HostLayer2
import proofs.«180449_j26645977104905_1_alg».proof.Proof.HostLayer3
import proofs.«180449_j26645977104905_1_alg».proof.Proof.HeadRef

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.MatProd Idealize.ShloMosaic.DotPlain
open Cert.ReferenceIdeal.ReadP

/-- The reference's three dot products have plain dimension numbers. -/
theorem plainRef0 : IsPlain Cert.ReferenceIdeal.dot_S100000x128_S128x64_S100000x64_1_0_0_1_n_n := ⟨rfl, rfl, rfl, rfl, rfl, rfl⟩
theorem plainRef1 : IsPlain Cert.ReferenceIdeal.dot_S100000x64_S64x64_S100000x64_1_0_0_1_n_n := ⟨rfl, rfl, rfl, rfl, rfl, rfl⟩
theorem plainRef2 : IsPlain Cert.ReferenceIdeal.dot_S100000x64_S64x32_S100000x32_1_0_0_1_n_n := ⟨rfl, rfl, rfl, rfl, rfl, rfl⟩

variable (m : (ℓ : Loc nD τ sig) → Buf (Elt Ideal) ℓ) (ρ : Dev nD → PrngReg) (c : Dev nD)

/-! ## Carried arrays -/

theorem carried5 (r : Ref sig .tc) (h0 : ∀ w, Pipeline.arrRef spec0 w ≠ r) (h1 : r ∉ hostOps1_W) (h2 : r ∉ hostOps1_1_W)
    (g0 : ∀ w, Pipeline.arrRef spec1 w ≠ r) : W5 m ρ c (Proc.devRef .tc r) = W1 m ρ c (Proc.devRef .tc r) :=
  (W5_of_ne m ρ c r g0).trans (keep_1_4 m ρ c r h0 h1 h2)

theorem carried7 (r : Ref sig .tc) (h0 : ∀ w, Pipeline.arrRef spec0 w ≠ r) (h1 : r ∉ hostOps1_W) (h2 : r ∉ hostOps1_1_W)
    (g0 : ∀ w, Pipeline.arrRef spec1 w ≠ r) (g1 : r ∉ hostOps2_W) (g2 : r ∉ hostOps2_1_W) :
    W7 m ρ c (Proc.devRef .tc r) = W1 m ρ c (Proc.devRef .tc r) :=
  (keep_4_7 m ρ c r g0 g1 g2).trans (keep_1_4 m ρ c r h0 h1 h2)

theorem carried8 (r : Ref sig .tc) (h0 : ∀ w, Pipeline.arrRef spec0 w ≠ r) (h1 : r ∉ hostOps1_W) (h2 : r ∉ hostOps1_1_W)
    (g0 : ∀ w, Pipeline.arrRef spec1 w ≠ r) (g1 : r ∉ hostOps2_W) (g2 : r ∉ hostOps2_1_W)
    (k0 : ∀ w, Pipeline.arrRef spec2 w ≠ r) : W8 m ρ c (Proc.devRef .tc r) = W1 m ρ c (Proc.devRef .tc r) :=
  (W8_of_ne m ρ c r k0).trans (carried7 m ρ c r h0 h1 h2 g0 g1 g2)

theorem carried11 (r : Ref sig .tc) (h0 : ∀ w, Pipeline.arrRef spec0 w ≠ r) (h1 : r ∉ hostOps1_W) (h2 : r ∉ hostOps1_1_W)
    (g0 : ∀ w, Pipeline.arrRef spec1 w ≠ r) (g1 : r ∉ hostOps2_W) (g2 : r ∉ hostOps2_1_W)
    (k0 : ∀ w, Pipeline.arrRef spec2 w ≠ r) (k1 : r ∉ hostOps3_W) (k2 : r ∉ hostOps3_1_W) (k3 : r ∉ hostOps3_2_W) :
    W11 m ρ c (Proc.devRef .tc r) = W1 m ρ c (Proc.devRef .tc r) :=
  (keep_7_11 m ρ c r k0 k1 k2 k3).trans (carried7 m ρ c r h0 h1 h2 g0 g1 g2)

/-! ## Before the first launch -/

theorem at1_arg (r : Ref sig .tc)
    (hr : r ∈ ([main_arg0, main_arg2, main_arg3, main_arg4, main_arg5, main_arg6, main_arg7, main_arg8, main_arg9, main_arg10, main_arg11, main_arg12] : List (Ref sig .tc))) :
    W1 m ρ c (Proc.devRef .tc r) = m ((c : Thread nD τ).loc r) :=
  (arg_of (W0 m ρ c) r hr).trans rfl

theorem at1_src : W1 m ρ c (Proc.devRef .tc main_v1) = val_main_v1 (F := Ideal) (m ((c : Thread nD τ).loc main_arg1)) := src_of (W0 m ρ c) _ rfl
theorem at1_dst : W1 m ρ c (Proc.devRef .tc main_v3) = val_main_v3 (F := Ideal) (m ((c : Thread nD τ).loc main_arg1)) := dst_of (W0 m ρ c) _ rfl
theorem at1_norm : W1 m ρ c (Proc.devRef .tc main_v31) = val_main_v32 (F := Ideal) (m ((c : Thread nD τ).loc main_arg1)) := norm_of (W0 m ρ c) _ rfl
theorem at1_self : W1 m ρ c (Proc.devRef .tc main_v32) = val_main_v51 (F := Ideal) (m ((c : Thread nD τ).loc main_arg1)) := self_of (W0 m ρ c) _ rfl

/-! ## The first layer -/

theorem at2_lin : W2 m ρ c (Proc.devRef .tc main_v33) = val_main_v4 (F := Ideal) (m ((c : Thread nD τ).loc main_arg0)) (m ((c : Thread nD τ).loc main_arg3)) := by
  refine (W2_arr m ρ c 2).trans ((product0 (V1 m ρ) c).trans ?_)
  show matProd (W1 m ρ c (Proc.devRef .tc main_arg0)) (W1 m ρ c (Proc.devRef .tc main_arg3)) = _
  rw [at1_arg m ρ c main_arg0 (by decide), at1_arg m ρ c main_arg3 (by decide)]
  exact (dotGeneral_eq plainRef0 none _ _).symm

theorem at4_act : W4 m ρ c (Proc.devRef .tc main_v59) = val_main_v59 (F := Ideal) (m ((c : Thread nD τ).loc main_arg0)) (m ((c : Thread nD τ).loc main_arg1)) (m ((c : Thread nD τ).loc main_arg3)) (m ((c : Thread nD τ).loc main_arg4)) :=
  layer1_of (W2 m ρ c) _ _ _ _
    ((W2_of_ne m ρ c main_v1 (by decide)).trans (at1_src m ρ c))
    ((W2_of_ne m ρ c main_v3 (by decide)).trans (at1_dst m ρ c))
    ((W2_of_ne m ρ c main_v31 (by decide)).trans (at1_norm m ρ c))
    ((W2_of_ne m ρ c main_v32 (by decide)).trans (at1_self m ρ c))
    (at2_lin m ρ c)
    ((W2_of_ne m ρ c main_arg4 (by decide)).trans (at1_arg m ρ c main_arg4 (by decide)))

/-! ## The second layer -/

theorem at5_lin : W5 m ρ c (Proc.devRef .tc main_v60) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((product1 (V4 m ρ) c).trans ?_)
  show matProd (W4 m ρ c (Proc.devRef .tc main_v59)) (W4 m ρ c (Proc.devRef .tc main_arg5)) = _
  rw [at4_act m ρ c, (keep_1_4 m ρ c main_arg5 (by decide) (by decide) (by decide)).trans (at1_arg m ρ c main_arg5 (by decide))]
  exact (dotGeneral_eq plainRef1 none _ _).symm

theorem at7_act : W7 m ρ c (Proc.devRef .tc main_v86) = val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  layer2_of (W5 m ρ c) _ _ _ _ _ _
    ((carried5 m ρ c main_v1 (by decide) (by decide) (by decide) (by decide)).trans (at1_src m ρ c))
    ((carried5 m ρ c main_v3 (by decide) (by decide) (by decide) (by decide)).trans (at1_dst m ρ c))
    (((carried5 m ρ c main_v31 (by decide) (by decide) (by decide) (by decide)).trans (at1_norm m ρ c)).trans (norm_layer2 _).symm)
    (((carried5 m ρ c main_v32 (by decide) (by decide) (by decide) (by decide)).trans (at1_self m ρ c)).trans (self_layer2 _).symm)
    (at5_lin m ρ c)
    ((carried5 m ρ c main_arg6 (by decide) (by decide) (by decide) (by decide)).trans (at1_arg m ρ c main_arg6 (by decide)))

/-! ## The third layer and the pooling -/

theorem at8_lin : W8 m ρ c (Proc.devRef .tc main_v87) = val_main_v116 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((product2 (V7 m ρ) c).trans ?_)
  show matProd (W7 m ρ c (Proc.devRef .tc main_v86)) (W7 m ρ c (Proc.devRef .tc main_arg7)) = _
  rw [at7_act m ρ c, (carried7 m ρ c main_arg7 (by decide) (by decide) (by decide) (by decide) (by decide) (by decide)).trans (at1_arg m ρ c main_arg7 (by decide))]
  exact (dotGeneral_eq plainRef2 none _ _).symm

theorem at11_pooled : W11 m ρ c (Proc.devRef .tc main_v125) = val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  pooled_of (W8 m ρ c) _ _ _ _ _ _ _ _ _
    ((carried8 m ρ c main_v1 (by decide) (by decide) (by decide) (by decide) (by decide) (by decide) (by decide)).trans (at1_src m ρ c))
    ((carried8 m ρ c main_v3 (by decide) (by decide) (by decide) (by decide) (by decide) (by decide) (by decide)).trans (at1_dst m ρ c))
    (((carried8 m ρ c main_v31 (by decide) (by decide) (by decide) (by decide) (by decide) (by decide) (by decide)).trans (at1_norm m ρ c)).trans (norm_layer3 _).symm)
    (((carried8 m ρ c main_v32 (by decide) (by decide) (by decide) (by decide) (by decide) (by decide) (by decide)).trans (at1_self m ρ c)).trans (self_layer3 _).symm)
    (at8_lin m ρ c)
    ((carried8 m ρ c main_arg8 (by decide) (by decide) (by decide) (by decide) (by decide) (by decide) (by decide)).trans (at1_arg m ρ c main_arg8 (by decide)))
    ((carried8 m ρ c main_arg2 (by decide) (by decide) (by decide) (by decide) (by decide) (by decide) (by decide)).trans (at1_arg m ρ c main_arg2 (by decide)))

/-! ## The head -/

/-- What the idealized kernel leaves in its result array is the reference's last stage of the arguments. -/
theorem result_eq : W12 m ρ c (Proc.devRef .tc main_v126) = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ((head_launch (V11 m ρ) c).trans ?_)
  show Cert.Head.head (W11 m ρ c (Proc.devRef .tc main_v125)) (W11 m ρ c (Proc.devRef .tc main_arg9)) (W11 m ρ c (Proc.devRef .tc main_arg10))
      (W11 m ρ c (Proc.devRef .tc main_arg11)) (W11 m ρ c (Proc.devRef .tc main_arg12)) = _
  rw [at11_pooled m ρ c,
    (carried11 m ρ c main_arg9 (by decide) (by decide) (by decide) (by decide) (by decide) (by decide) (by decide) (by decide) (by decide) (by decide)).trans (at1_arg m ρ c main_arg9 (by decide)),
    (carried11 m ρ c main_arg10 (by decide) (by decide) (by decide) (by decide) (by decide) (by decide) (by decide) (by decide) (by decide) (by decide)).trans (at1_arg m ρ c main_arg10 (by decide)),
    (carried11 m ρ c main_arg11 (by decide) (by decide) (by decide) (by decide) (by decide) (by decide) (by decide) (by decide) (by decide) (by decide)).trans (at1_arg m ρ c main_arg11 (by decide)),
    (carried11 m ρ c main_arg12 (by decide) (by decide) (by decide) (by decide) (by decide) (by decide) (by decide) (by decide) (by decide) (by decide)).trans (at1_arg m ρ c main_arg12 (by decide))]
  exact (Cert.ReferenceIdeal.RefHead.result_eq _ _ _ _ _ _ _ _ _ _ _ _ _).symm

end Cert.KernelIdeal.Fold

end
-- ==== Proof.RefRun.lean ====
/-
  The reference's run, followed piece by piece. The reference is a straight line of host operations; after it every buffer
  holds the fold of the operations' results over the launch memory. The line is taken in twelve consecutive pieces — the
  edges' ends and the first matrix product; for each layer its normalisation weights, aggregation and bias, then its maximum
  with zero; the mean over each graph's nodes; the head's two dense layers with the maximum with zero between them; the
  log-softmax — and each piece, run from contents that agree with the earlier stages on the arrays it reads, leaves the next
  stage in the array it computes. The pieces that the program spells as calls through typed references (the maxima with
  zero, the log-softmax) are followed over any input array, so that the moves into and out of the references' buffer types
  sit on a variable. The edges' ends and the arguments, which no later piece writes, are carried along. So the result array
  ends at the last stage of the arguments, and no argument array changes.
-/
import proofs.«180449_j26645977104905_1_alg».proof.Proof.RefRead
import proofs.«180449_j26645977104905_1_alg».proof.Proof.LibTypedRef
import Idealize.ShloMosaic.Lib.StableHlo.Run

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Idealize.ShloMosaic.TypedRef

/-! ## What each piece leaves alone: the arguments, and for the layers' pieces the edges' ends -/

set_option maxHeartbeats 4000000 in
theorem keep01 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops01 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops01]; after_results_simp)
set_option maxHeartbeats 4000000 in
theorem keep02 (V : Valuation τ sig (Elt Ideal)) (r : Ref sig .tc) (hr : r ∈ ([main_arg0, main_arg1, main_arg2, main_arg3, main_arg4, main_arg5, main_arg6, main_arg7, main_arg8, main_arg9, main_arg10, main_arg11, main_arg12, main_v1, main_v3] : List (Ref sig .tc))) :
    after ops02 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
    (dsimp only [ops02]; after_results_simp)
set_option maxHeartbeats 4000000 in
theorem keep03 (V : Valuation τ sig (Elt Ideal)) (r : Ref sig .tc) (hr : r ∈ ([main_arg0, main_arg1, main_arg2, main_arg3, main_arg4, main_arg5, main_arg6, main_arg7, main_arg8, main_arg9, main_arg10, main_arg11, main_arg12, main_v1, main_v3] : List (Ref sig .tc))) :
    after ops03 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
    (dsimp only [ops03]; after_results_simp)
set_option maxHeartbeats 4000000 in
theorem keep04 (V : Valuation τ sig (Elt Ideal)) (r : Ref sig .tc) (hr : r ∈ ([main_arg0, main_arg1, main_arg2, main_arg3, main_arg4, main_arg5, main_arg6, main_arg7, main_arg8, main_arg9, main_arg10, main_arg11, main_arg12, main_v1, main_v3] : List (Ref sig .tc))) :
    after ops04 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
    (dsimp only [ops04]; after_results_simp)
set_option maxHeartbeats 4000000 in
theorem keep05 (V : Valuation τ sig (Elt Ideal)) (r : Ref sig .tc) (hr : r ∈ ([main_arg0, main_arg1, main_arg2, main_arg3, main_arg4, main_arg5, main_arg6, main_arg7, main_arg8, main_arg9, main_arg10, main_arg11, main_arg12, main_v1, main_v3] : List (Ref sig .tc))) :
    after ops05 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
    (dsimp only [ops05]; after_results_simp)
set_option maxHeartbeats 4000000 in
theorem keep06 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops06 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops06]; after_results_simp)
set_option maxHeartbeats 4000000 in
theorem keep07 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops07 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops07]; after_results_simp)
set_option maxHeartbeats 4000000 in
theorem keep08 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops08 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops08]; after_results_simp)
set_option maxHeartbeats 4000000 in
theorem keep09 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops09 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops09]; after_results_simp)
set_option maxHeartbeats 4000000 in
theorem keep10 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops10 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops10]; after_results_simp)
set_option maxHeartbeats 4000000 in
theorem keep11 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops11 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops11]; after_results_simp)
set_option maxHeartbeats 4000000 in
theorem keep12 (V : Valuation τ sig (Elt Ideal)) (r : Ref sig .tc) (hr : r ∈ ([main_arg0, main_arg1, main_arg2, main_arg3, main_arg4, main_arg5, main_arg6, main_arg7, main_arg8, main_arg9, main_arg10, main_arg11, main_arg12] : List (Ref sig .tc))) :
    after ops12 V (Proc.devRef .tc r) = V (Proc.devRef .tc r) := by
  simp only [List.mem_cons, List.mem_nil_iff, or_false] at hr
  rcases hr with rfl | rfl | rfl | rfl | rfl | rfl | rfl | rfl | rfl | rfl | rfl | rfl | rfl <;>
    (dsimp only [ops12]; after_results_simp)

/-! ## Each piece from contents that agree with the earlier stages -/

section
variable (V : Valuation τ sig (Elt Ideal))

theorem src01 (x1 : (⟨S2x3200000, .i32⟩ : BufTy).Contents (Elt Ideal)) (h : V (Proc.devRef .tc main_arg1) = x1) : after ops01 V (Proc.devRef .tc main_v1) = val_main_v1 (F := Ideal) x1 := by
  subst h; dsimp only [ops01]; after_results_simp; rfl
theorem dst01 (x1 : (⟨S2x3200000, .i32⟩ : BufTy).Contents (Elt Ideal)) (h : V (Proc.devRef .tc main_arg1) = x1) : after ops01 V (Proc.devRef .tc main_v3) = val_main_v3 (F := Ideal) x1 := by
  subst h; dsimp only [ops01]; after_results_simp; rfl
theorem lin01 (x0 : (⟨S100000x128, .f32⟩ : BufTy).Contents (Elt Ideal)) (x3 : (⟨S128x64, .f32⟩ : BufTy).Contents (Elt Ideal)) (h0 : V (Proc.devRef .tc main_arg0) = x0) (h3 : V (Proc.devRef .tc main_arg3) = x3) :
    after ops01 V (Proc.devRef .tc main_v4) = val_main_v4 (F := Ideal) x0 x3 := by
  subst h0 h3; dsimp only [ops01]; after_results_simp; rfl

theorem pre02 (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (h1 : V (Proc.devRef .tc main_v1) = val_main_v1 (F := Ideal) x1) (h3 : V (Proc.devRef .tc main_v3) = val_main_v3 (F := Ideal) x1)
    (hl : V (Proc.devRef .tc main_v4) = val_main_v4 (F := Ideal) x0 x3) (hb : V (Proc.devRef .tc main_arg4) = x4) :
    after ops02 V (Proc.devRef .tc main_v58) = val_main_v58 (F := Ideal) x0 x1 x3 x4 := by
  dsimp only [ops02]; after_results_simp; rw [h1, h3, hl, hb]; rfl

theorem relu03 (W : Valuation τ sig (Elt Ideal)) (z : (⟨S100000x64, .f32⟩ : BufTy).Contents (Elt Ideal)) (hz : W (Proc.devRef .tc main_v58) = z) :
    after ops03 W (Proc.devRef .tc main_v59) = maximumf z (broadcastInDim S100000x64 ![] bcast_S_S100000x64 (constant (F := Ideal) S_ .f32 0x00000000#32)) := by
  dsimp only [ops03]; after_results_simp; rw [hz]; simp only [ofBuf_toBuf]; rfl

theorem pre04 (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (h1 : V (Proc.devRef .tc main_v1) = val_main_v1 (F := Ideal) x1) (h3 : V (Proc.devRef .tc main_v3) = val_main_v3 (F := Ideal) x1)
    (ha : V (Proc.devRef .tc main_v59) = val_main_v59 (F := Ideal) x0 x1 x3 x4) (h5 : V (Proc.devRef .tc main_arg5) = x5) (h6 : V (Proc.devRef .tc main_arg6) = x6) :
    after ops04 V (Proc.devRef .tc main_v114) = val_main_v114 (F := Ideal) x0 x1 x3 x4 x5 x6 := by
  dsimp only [ops04]; after_results_simp; rw [h1, h3, ha, h5, h6]; rfl

theorem relu05 (W : Valuation τ sig (Elt Ideal)) (z : (⟨S100000x64, .f32⟩ : BufTy).Contents (Elt Ideal)) (hz : W (Proc.devRef .tc main_v114) = z) :
    after ops05 W (Proc.devRef .tc main_v115) = maximumf z (broadcastInDim S100000x64 ![] bcast_S_S100000x64 (constant (F := Ideal) S_ .f32 0x00000000#32)) := by
  dsimp only [ops05]; after_results_simp; rw [hz]; simp only [ofBuf_toBuf]; rfl

theorem pre06 (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (h1 : V (Proc.devRef .tc main_v1) = val_main_v1 (F := Ideal) x1) (h3 : V (Proc.devRef .tc main_v3) = val_main_v3 (F := Ideal) x1)
    (ha : V (Proc.devRef .tc main_v115) = val_main_v115 (F := Ideal) x0 x1 x3 x4 x5 x6) (h7 : V (Proc.devRef .tc main_arg7) = x7) (h8 : V (Proc.devRef .tc main_arg8) = x8) :
    after ops06 V (Proc.devRef .tc main_v170) = val_main_v170 (F := Ideal) x0 x1 x3 x4 x5 x6 x7 x8 := by
  dsimp only [ops06]; after_results_simp; rw [h1, h3, ha, h7, h8]; rfl

theorem relu07 (W : Valuation τ sig (Elt Ideal)) (z : (⟨S100000x32, .f32⟩ : BufTy).Contents (Elt Ideal)) (hz : W (Proc.devRef .tc main_v170) = z) :
    after ops07 W (Proc.devRef .tc main_v171) = maximumf z (broadcastInDim S100000x32 ![] bcast_S_S100000x32 (constant (F := Ideal) S_ .f32 0x00000000#32)) := by
  dsimp only [ops07]; after_results_simp; rw [hz]; simp only [ofBuf_toBuf]; rfl

theorem pool08 (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (ha : V (Proc.devRef .tc main_v171) = val_main_v171 (F := Ideal) x0 x1 x3 x4 x5 x6 x7 x8)
    (h2 : V (Proc.devRef .tc main_arg2) = x2) :
    after ops08 V (Proc.devRef .tc main_v183) = val_main_v183 (F := Ideal) x0 x1 x2 x3 x4 x5 x6 x7 x8 := by
  dsimp only [ops08]; after_results_simp; rw [ha, h2]; rfl

theorem dense09 (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (hp : V (Proc.devRef .tc main_v183) = val_main_v183 (F := Ideal) x0 x1 x2 x3 x4 x5 x6 x7 x8)
    (h9 : V (Proc.devRef .tc main_arg9) = x9) (h10 : V (Proc.devRef .tc main_arg10) = x10) :
    after ops09 V (Proc.devRef .tc main_v187) = val_main_v187 (F := Ideal) x0 x1 x2 x3 x4 x5 x6 x7 x8 x9 x10 := by
  dsimp only [ops09]; after_results_simp; rw [hp, h9, h10]; rfl

theorem relu10 (W : Valuation τ sig (Elt Ideal)) (z : (⟨S1024x16, .f32⟩ : BufTy).Contents (Elt Ideal)) (hz : W (Proc.devRef .tc main_v187) = z) :
    after ops10 W (Proc.devRef .tc main_v188) = maximumf z (broadcastInDim S1024x16 ![] bcast_S_S1024x16 (constant (F := Ideal) S_ .f32 0x00000000#32)) := by
  dsimp only [ops10]; after_results_simp; rw [hz]; simp only [ofBuf_toBuf]; rfl

theorem dense11 (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (hh : V (Proc.devRef .tc main_v188) = val_main_v188 (F := Ideal) x0 x1 x2 x3 x4 x5 x6 x7 x8 x9 x10)
    (h11 : V (Proc.devRef .tc main_arg11) = x11) (h12 : V (Proc.devRef .tc main_arg12) = x12) :
    after ops11 V (Proc.devRef .tc main_v192) = val_main_v192 (F := Ideal) x0 x1 x2 x3 x4 x5 x6 x7 x8 x9 x10 x11 x12 := by
  dsimp only [ops11]; after_results_simp; rw [hh, h11, h12]; rfl

end

/-- jax's log-softmax along the rows as the reference's host operations spell it, of any [1024, 16] array. -/
def hostLogSoftmax (z : (⟨S1024x16, .f32⟩ : BufTy).Contents (Elt Ideal)) : (⟨S1024x16, .f32⟩ : BufTy).Contents (Elt Ideal) :=
  subf
    (subf z (broadcastInDim S1024x16 ![0, 1] bcast_S1024x1_S1024x16_0_1 (broadcastInDim S1024x1 ![0] bcast_S1024_S1024x1_0
      (maximumf (broadcastInDim S1024 ![] bcast_S_S1024 (constant (F := Ideal) S_ .f32 0xFF800000#32))
        (Host.reduce FloatOps.maximumf z (constant (F := Ideal) S_ .f32 0xFF800000#32) reducesTo_S1024x16_S1024_d1 h_S_)))))
    (broadcastInDim S1024x16 ![0, 1] bcast_S1024x1_S1024x16_0_1 (Host.log (broadcastInDim S1024x1 ![0] bcast_S1024_S1024x1_0
      (Host.reduceAdd
        (Host.exp (subf z (broadcastInDim S1024x16 ![0, 1] bcast_S1024x1_S1024x16_0_1 (broadcastInDim S1024x1 ![0] bcast_S1024_S1024x1_0
          (maximumf (broadcastInDim S1024 ![] bcast_S_S1024 (constant (F := Ideal) S_ .f32 0xFF800000#32))
            (Host.reduce FloatOps.maximumf z (constant (F := Ideal) S_ .f32 0xFF800000#32) reducesTo_S1024x16_S1024_d1 h_S_))))))
        (constant (F := Ideal) S_ .f32 0x00000000#32) reducesTo_S1024x16_S1024_d1 h_S_))))

theorem lsm12 (W : Valuation τ sig (Elt Ideal)) (z : (⟨S1024x16, .f32⟩ : BufTy).Contents (Elt Ideal)) (hz : W (Proc.devRef .tc main_v192) = z) :
    after ops12 W (Proc.devRef .tc main_v193) = hostLogSoftmax z := by
  dsimp only [ops12]; after_results_simp; rw [hz]; simp only [ofBuf_toBuf]; rfl

/-! ## The whole line -/

section
variable (V : Valuation τ sig (Elt Ideal))

abbrev W01 : Valuation τ sig (Elt Ideal) := after ops01 V
abbrev W02 : Valuation τ sig (Elt Ideal) := after ops02 (W01 V)
abbrev W03 : Valuation τ sig (Elt Ideal) := after ops03 (W02 V)
abbrev W04 : Valuation τ sig (Elt Ideal) := after ops04 (W03 V)
abbrev W05 : Valuation τ sig (Elt Ideal) := after ops05 (W04 V)
abbrev W06 : Valuation τ sig (Elt Ideal) := after ops06 (W05 V)
abbrev W07 : Valuation τ sig (Elt Ideal) := after ops07 (W06 V)
abbrev W08 : Valuation τ sig (Elt Ideal) := after ops08 (W07 V)
abbrev W09 : Valuation τ sig (Elt Ideal) := after ops09 (W08 V)
abbrev W10 : Valuation τ sig (Elt Ideal) := after ops10 (W09 V)
abbrev W11 : Valuation τ sig (Elt Ideal) := after ops11 (W10 V)
abbrev W12 : Valuation τ sig (Elt Ideal) := after ops12 (W11 V)

/-- The contents after the whole line are the pieces' folds, one over the other. -/
theorem after_pieces : after (ops (F := Ideal)) V = W12 V := by
  show after (ops01 ++ ops02 ++ ops03 ++ ops04 ++ ops05 ++ ops06 ++ ops07 ++ ops08 ++ ops09 ++ ops10 ++ ops11 ++ ops12) V = _
  rw [StableHlo.after_append, StableHlo.after_append, StableHlo.after_append, StableHlo.after_append, StableHlo.after_append, StableHlo.after_append, StableHlo.after_append, StableHlo.after_append, StableHlo.after_append, StableHlo.after_append, StableHlo.after_append]

theorem arg01 (r : Ref sig .tc) (hr : r ∈ ([main_arg0, main_arg1, main_arg2, main_arg3, main_arg4, main_arg5, main_arg6, main_arg7, main_arg8, main_arg9, main_arg10, main_arg11, main_arg12] : List (Ref sig .tc))) : W01 V (Proc.devRef .tc r) = V (Proc.devRef .tc r) :=
  (keep01 _ r hr)
theorem arg02 (r : Ref sig .tc) (hr : r ∈ ([main_arg0, main_arg1, main_arg2, main_arg3, main_arg4, main_arg5, main_arg6, main_arg7, main_arg8, main_arg9, main_arg10, main_arg11, main_arg12] : List (Ref sig .tc))) : W02 V (Proc.devRef .tc r) = V (Proc.devRef .tc r) :=
  (keep02 _ r (List.mem_append_left _ hr)).trans (arg01 V r hr)
theorem arg03 (r : Ref sig .tc) (hr : r ∈ ([main_arg0, main_arg1, main_arg2, main_arg3, main_arg4, main_arg5, main_arg6, main_arg7, main_arg8, main_arg9, main_arg10, main_arg11, main_arg12] : List (Ref sig .tc))) : W03 V (Proc.devRef .tc r) = V (Proc.devRef .tc r) :=
  (keep03 _ r (List.mem_append_left _ hr)).trans (arg02 V r hr)
theorem arg04 (r : Ref sig .tc) (hr : r ∈ ([main_arg0, main_arg1, main_arg2, main_arg3, main_arg4, main_arg5, main_arg6, main_arg7, main_arg8, main_arg9, main_arg10, main_arg11, main_arg12] : List (Ref sig .tc))) : W04 V (Proc.devRef .tc r) = V (Proc.devRef .tc r) :=
  (keep04 _ r (List.mem_append_left _ hr)).trans (arg03 V r hr)
theorem arg05 (r : Ref sig .tc) (hr : r ∈ ([main_arg0, main_arg1, main_arg2, main_arg3, main_arg4, main_arg5, main_arg6, main_arg7, main_arg8, main_arg9, main_arg10, main_arg11, main_arg12] : List (Ref sig .tc))) : W05 V (Proc.devRef .tc r) = V (Proc.devRef .tc r) :=
  (keep05 _ r (List.mem_append_left _ hr)).trans (arg04 V r hr)
theorem arg06 (r : Ref sig .tc) (hr : r ∈ ([main_arg0, main_arg1, main_arg2, main_arg3, main_arg4, main_arg5, main_arg6, main_arg7, main_arg8, main_arg9, main_arg10, main_arg11, main_arg12] : List (Ref sig .tc))) : W06 V (Proc.devRef .tc r) = V (Proc.devRef .tc r) :=
  (keep06 _ r hr).trans (arg05 V r hr)
theorem arg07 (r : Ref sig .tc) (hr : r ∈ ([main_arg0, main_arg1, main_arg2, main_arg3, main_arg4, main_arg5, main_arg6, main_arg7, main_arg8, main_arg9, main_arg10, main_arg11, main_arg12] : List (Ref sig .tc))) : W07 V (Proc.devRef .tc r) = V (Proc.devRef .tc r) :=
  (keep07 _ r hr).trans (arg06 V r hr)
theorem arg08 (r : Ref sig .tc) (hr : r ∈ ([main_arg0, main_arg1, main_arg2, main_arg3, main_arg4, main_arg5, main_arg6, main_arg7, main_arg8, main_arg9, main_arg10, main_arg11, main_arg12] : List (Ref sig .tc))) : W08 V (Proc.devRef .tc r) = V (Proc.devRef .tc r) :=
  (keep08 _ r hr).trans (arg07 V r hr)
theorem arg09 (r : Ref sig .tc) (hr : r ∈ ([main_arg0, main_arg1, main_arg2, main_arg3, main_arg4, main_arg5, main_arg6, main_arg7, main_arg8, main_arg9, main_arg10, main_arg11, main_arg12] : List (Ref sig .tc))) : W09 V (Proc.devRef .tc r) = V (Proc.devRef .tc r) :=
  (keep09 _ r hr).trans (arg08 V r hr)
theorem arg10 (r : Ref sig .tc) (hr : r ∈ ([main_arg0, main_arg1, main_arg2, main_arg3, main_arg4, main_arg5, main_arg6, main_arg7, main_arg8, main_arg9, main_arg10, main_arg11, main_arg12] : List (Ref sig .tc))) : W10 V (Proc.devRef .tc r) = V (Proc.devRef .tc r) :=
  (keep10 _ r hr).trans (arg09 V r hr)
theorem arg11 (r : Ref sig .tc) (hr : r ∈ ([main_arg0, main_arg1, main_arg2, main_arg3, main_arg4, main_arg5, main_arg6, main_arg7, main_arg8, main_arg9, main_arg10, main_arg11, main_arg12] : List (Ref sig .tc))) : W11 V (Proc.devRef .tc r) = V (Proc.devRef .tc r) :=
  (keep11 _ r hr).trans (arg10 V r hr)
theorem arg12 (r : Ref sig .tc) (hr : r ∈ ([main_arg0, main_arg1, main_arg2, main_arg3, main_arg4, main_arg5, main_arg6, main_arg7, main_arg8, main_arg9, main_arg10, main_arg11, main_arg12] : List (Ref sig .tc))) : W12 V (Proc.devRef .tc r) = V (Proc.devRef .tc r) :=
  (keep12 _ r hr).trans (arg11 V r hr)

/-- No operation of the line writes an argument. -/
theorem arg_kept (r : Ref sig .tc) (hr : r ∈ ([main_arg0, main_arg1, main_arg2, main_arg3, main_arg4, main_arg5, main_arg6, main_arg7, main_arg8, main_arg9, main_arg10, main_arg11, main_arg12] : List (Ref sig .tc))) : after (ops (F := Ideal)) V (Proc.devRef .tc r) = V (Proc.devRef .tc r) := by
  rw [after_pieces]; exact arg12 V r hr

/-- The result array ends at the reference's last stage of the arguments. -/
theorem result_of : after (ops (F := Ideal)) V (Proc.devRef .tc main_v193) = val_main_v193 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_pieces]
  have s1 : W01 V (Proc.devRef .tc main_v1) = _ := src01 V _ rfl
  have d1 : W01 V (Proc.devRef .tc main_v3) = _ := dst01 V _ rfl
  have s2 : W02 V (Proc.devRef .tc main_v1) = _ := (keep02 _ main_v1 (by decide)).trans s1
  have d2 : W02 V (Proc.devRef .tc main_v3) = _ := (keep02 _ main_v3 (by decide)).trans d1
  have s3 : W03 V (Proc.devRef .tc main_v1) = _ := (keep03 _ main_v1 (by decide)).trans s2
  have d3 : W03 V (Proc.devRef .tc main_v3) = _ := (keep03 _ main_v3 (by decide)).trans d2
  have s4 : W04 V (Proc.devRef .tc main_v1) = _ := (keep04 _ main_v1 (by decide)).trans s3
  have d4 : W04 V (Proc.devRef .tc main_v3) = _ := (keep04 _ main_v3 (by decide)).trans d3
  have s5 : W05 V (Proc.devRef .tc main_v1) = _ := (keep05 _ main_v1 (by decide)).trans s4
  have d5 : W05 V (Proc.devRef .tc main_v3) = _ := (keep05 _ main_v3 (by decide)).trans d4
  have p2 : W02 V (Proc.devRef .tc main_v58) = val_main_v58 (F := Ideal) (V (Proc.devRef .tc main_arg0)) (V (Proc.devRef .tc main_arg1)) (V (Proc.devRef .tc main_arg3)) (V (Proc.devRef .tc main_arg4)) :=
    pre02 (W01 V) _ _ _ _ s1 d1 (lin01 V _ _ rfl rfl) (arg01 V main_arg4 (by decide))
  have a3 : W03 V (Proc.devRef .tc main_v59) = val_main_v59 (F := Ideal) (V (Proc.devRef .tc main_arg0)) (V (Proc.devRef .tc main_arg1)) (V (Proc.devRef .tc main_arg3)) (V (Proc.devRef .tc main_arg4)) := (relu03 (W02 V) _ p2).trans rfl
  have p4 : W04 V (Proc.devRef .tc main_v114) = val_main_v114 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) :=
    pre04 (W03 V) _ _ _ _ _ _ s3 d3 a3 (arg03 V main_arg5 (by decide)) (arg03 V main_arg6 (by decide))
  have a5 : W05 V (Proc.devRef .tc main_v115) = val_main_v115 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) := (relu05 (W04 V) _ p4).trans rfl
  have p6 : W06 V (Proc.devRef .tc main_v170) = val_main_v170 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
    pre06 (W05 V) _ _ _ _ _ _ _ _ s5 d5 a5 (arg05 V main_arg7 (by decide)) (arg05 V main_arg8 (by decide))
  have a7 : W07 V (Proc.devRef .tc main_v171) = val_main_v171 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := (relu07 (W06 V) _ p6).trans rfl
  have p8 : W08 V (Proc.devRef .tc main_v183) = val_main_v183 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
    pool08 (W07 V) _ _ _ _ _ _ _ _ _ a7 (arg07 V main_arg2 (by decide))
  have p9 : W09 V (Proc.devRef .tc main_v187) = val_main_v187 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
    dense09 (W08 V) _ _ _ _ _ _ _ _ _ _ _ p8 (arg08 V main_arg9 (by decide)) (arg08 V main_arg10 (by decide))
  have a10 : W10 V (Proc.devRef .tc main_v188) = val_main_v188 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := (relu10 (W09 V) _ p9).trans rfl
  have p11 : W11 V (Proc.devRef .tc main_v192) = val_main_v192 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
    dense11 (W10 V) _ _ _ _ _ _ _ _ _ _ _ _ _ a10 (arg10 V main_arg11 (by decide)) (arg10 V main_arg12 (by decide))
  exact (lsm12 (W11 V) _ p11).trans rfl

end

/-! ## The run -/

/-- From any memory with zero counters every weakly fair execution of the reference terminates, the result array at the
    last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v193).trans (result_of (launchContents m c)),
      (h c main_arg0).trans (arg_kept (launchContents m c) main_arg0 (by decide)),
      (h c main_arg1).trans (arg_kept (launchContents m c) main_arg1 (by decide)),
      (h c main_arg2).trans (arg_kept (launchContents m c) main_arg2 (by decide)),
      (h c main_arg3).trans (arg_kept (launchContents m c) main_arg3 (by decide)),
      (h c main_arg4).trans (arg_kept (launchContents m c) main_arg4 (by decide)),
      (h c main_arg5).trans (arg_kept (launchContents m c) main_arg5 (by decide)),
      (h c main_arg6).trans (arg_kept (launchContents m c) main_arg6 (by decide)),
      (h c main_arg7).trans (arg_kept (launchContents m c) main_arg7 (by decide)),
      (h c main_arg8).trans (arg_kept (launchContents m c) main_arg8 (by decide)),
      (h c main_arg9).trans (arg_kept (launchContents m c) main_arg9 (by decide)),
      (h c main_arg10).trans (arg_kept (launchContents m c) main_arg10 (by decide)),
      (h c main_arg11).trans (arg_kept (launchContents m c) main_arg11 (by decide)),
      (h c main_arg12).trans (arg_kept (launchContents m c) main_arg12 (by decide))⟩)
    (run_seq scopedRefs_eq scopedSems_eq defs main (fun _ => ops) main_eq (fun _ => ops_sub) m ρ)

end Cert.ReferenceIdeal.RefRun

end
-- ==== Proof.lean ====
/-
  The certificate of a three-layer graph convolution network with mean pooling and a two-layer classifier head, computed by
  four kernel launches among host operations, against its plain reference.

  At the ideal instance both programs compute the same function of the arguments, operation for operation. The host work
  — the edges' ends, the degree-based weights of the edges and of the self loops, each layer's gather along the edges,
  scaling, scatter-add into the target nodes, self-loop term, bias and maximum with zero, the per-graph means — is the same
  list of operations in both; the kernel computes the weights once where the reference computes them anew for every layer.
  Each linear launch rounds its operands to bf16, which is the identity on extended reals, and stores a matrix-unit product
  into a zero accumulator: the matrix product the reference's dot product is. The last launch computes the head with vector
  operations where the reference uses host ones: the same sums, maxima, exponentials and logarithms entry by entry. No step
  uses that the inputs are finite: nothing is regrouped, so the precondition is never opened.

  The three frames are the generated frames of the two kernel programs and the reference's run with its result dropped;
  the idealization rewrote no operation, so its claim is trivial.
-/
import proofs.«180449_j26645977104905_1_alg».proof.Defs
import proofs.«180449_j26645977104905_1_alg».proof.Proof.Gen.Kernel
import proofs.«180449_j26645977104905_1_alg».proof.Proof.Gen.Kernel.Skeleton
import proofs.«180449_j26645977104905_1_alg».proof.Proof.Gen.Kernel.Launch
import proofs.«180449_j26645977104905_1_alg».proof.Proof.Gen.Kernel.Points
import proofs.«180449_j26645977104905_1_alg».proof.Proof.Gen.Kernel.Frame
import proofs.«180449_j26645977104905_1_alg».proof.Proof.Gen.KernelIdeal
import proofs.«180449_j26645977104905_1_alg».proof.Proof.Gen.KernelIdeal.Skeleton
import proofs.«180449_j26645977104905_1_alg».proof.Proof.Gen.KernelIdeal.Launch
import proofs.«180449_j26645977104905_1_alg».proof.Proof.Gen.KernelIdeal.Points
import proofs.«180449_j26645977104905_1_alg».proof.Proof.Gen.KernelIdeal.Frame
import proofs.«180449_j26645977104905_1_alg».proof.Proof.Gen.ReferenceIdeal
import proofs.«180449_j26645977104905_1_alg».proof.Proof.Gen.Pre_finite_inputs
import proofs.«180449_j26645977104905_1_alg».proof.Proof.KernelRun
import proofs.«180449_j26645977104905_1_alg».proof.Proof.Simulation
import proofs.«180449_j26645977104905_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates and leaves its arguments alone: its run, the result dropped. -/
theorem frame_reference : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both idealized programs, from memories that agree on the arguments, end with the result array at the reference's last
    stage of the arguments: the kernel's fold of its segments ends there, and so does the reference's line. -/
theorem algebraic : Cert.algebraic_KernelIdeal_ReferenceIdeal := by
  intro m ρ m' ρ' _ hagree
  refine ⟨fun c => Cert.KernelIdeal.Gen.W12 m ρ c (Proc.devRef .tc Cert.KernelIdeal.main_v126), Cert.KernelIdeal.Fold.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6, a7, a8, a9, a10, a11, a12⟩ := hagree c
  rw [a0, a1, a2, a3, a4, a5, a6, a7, a8, a9, a10, a11, a12]
  exact (Cert.KernelIdeal.Fold.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
